-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x8000000 : Shape := ⟨2, ![2, 8000000]⟩
abbrev S4x128 : Shape := ⟨2, ![4, 128]⟩
abbrev S4 : Shape := ⟨1, ![4]⟩
abbrev S4x4 : Shape := ⟨2, ![4, 4]⟩
abbrev S2x4 : Shape := ⟨2, ![2, 4]⟩
abbrev S2 : Shape := ⟨1, ![2]⟩
abbrev S10x2 : Shape := ⟨2, ![10, 2]⟩
abbrev S10 : Shape := ⟨1, ![10]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S2x4 : S_.BroadcastsInDim S2x4 (![] : Fin 0 → Fin S2x4.rank)
  reducesTo_S2x4_S_d0_1 : S2x4.ReducesTo [0, 1] S_
  bcast_S_S2 : S_.BroadcastsInDim S2 (![] : Fin 0 → Fin S2.rank)
  reducesTo_S2_S_d0 : S2.ReducesTo [0] S_
  bcast_S_S10x2 : S_.BroadcastsInDim S10x2 (![] : Fin 0 → Fin S10x2.rank)
  reducesTo_S10x2_S_d0_1 : S10x2.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S10x2 .f32) (main_arg9 : FVec F S10 .f32) (main_v33 : IVec S_ 1) : IVec S_ 1 :=
  let main_v34 : FVec F S10x2 .f32 := Host.absf main_arg8
  let main_cst_12 : FVec F S_ .f32 := constant S_ .f32 0x7F800000#32
  let main_v35 : FVec F S10x2 .f32 := broadcastInDim S10x2 ![] bcast_S_S10x2 main_cst_12
  let main_v36 : IVec S10x2 1 := cmpf .olt main_v34 main_v35
  let main_c_13 : IVec S_ 1 := constantI S_ 1 1#1
  let main_v37 : IVec S_ 1 := (fun x v => Host.reduce IntOp.andi x v reducesTo_S10x2_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S4 .f32) (main_arg6 : FVec F S2x4 .f32) (main_arg7 : FVec F S2 .f32) (main_arg8 : FVec F S10x2 .f32) (main_arg9 : FVec F S10 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S2x4 .f32 := Host.absf main_arg6
  let main_cst_8 : FVec F S_ .f32 := constant S_ .f32 0x7F800000#32
  let main_v25 : FVec F S2x4 .f32 := broadcastInDim S2x4 ![] bcast_S_S2x4 main_cst_8
  let main_v26 : IVec S2x4 1 := cmpf .olt main_v24 main_v25
  let main_c_9 : IVec S_ 1 := constantI S_ 1 1#1
  let main_v27 : IVec S_ 1 := (fun x v => Host.reduce IntOp.andi x v reducesTo_S2x4_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_v33

def fn {F : FTy → Type} [FloatOps F] (main_arg0 : FVec F S500000x128 .f32) (main_arg1 : IVec S2x8000000 32) (main_arg2 : FVec F S4x128 .f32) (main_arg3 : FVec F S4 .f32) (main_arg4 : FVec F S4x4 .f32) (main_arg5 : FVec F S4 .f32) (main_arg6 : FVec F S2x4 .f32) (main_arg7 : FVec F S2 .f32) (main_arg8 : FVec F S10x2 .f32) (main_arg9 : FVec F S10 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S4x128 .f32 := Host.absf main_arg2
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_arg6 main_arg7 main_arg8 main_arg9 main_v13 main_v16
-- ==== Kernel.lean ====
abbrev S500000x128 : Shape := ⟨2, ![500000, 128]⟩
abbrev S2x8000000 : Shape := ⟨2, ![2, 8000000]⟩
abbrev S4x128 : Shape := ⟨2, ![4, 128]⟩
abbrev S4 : Shape := ⟨1, ![4]⟩
abbrev S4x4 : Shape := ⟨2, ![4, 4]⟩
abbrev S2x4 : Shape := ⟨2, ![2, 4]⟩
abbrev S2 : Shape := ⟨1, ![2]⟩
abbrev S10x2 : Shape := ⟨2, ![10, 2]⟩
abbrev S10 : Shape := ⟨1, ![10]⟩
abbrev S500000 : Shape := ⟨1, ![500000]⟩
abbrev S1x8000000 : Shape := ⟨2, ![1, 8000000]⟩
abbrev S8000000 : Shape := ⟨1, ![8000000]⟩
abbrev S8500000 : Shape := ⟨1, ![8500000]⟩
abbrev S_ : Shape := ⟨0, ![]⟩
abbrev S8500000x1 : Shape := ⟨2, ![8500000, 1]⟩
abbrev S500000x4 : Shape := ⟨2, ![500000, 4]⟩
abbrev S5000x128 : Shape := ⟨2, ![5000, 128]⟩
abbrev S5000x4 : Shape := ⟨2, ![5000, 4]⟩
abbrev S128x4 : Shape := ⟨2, ![128, 4]⟩
abbrev S8500000x4 : Shape := ⟨2, ![8500000, 4]⟩
abbrev S1x4 : Shape := ⟨2, ![1, 4]⟩
abbrev S500000x2 : Shape := ⟨2, ![500000, 2]⟩
abbrev S5000x2 : Shape := ⟨2, ![5000, 2]⟩
abbrev S4x2 : Shape := ⟨2, ![4, 2]⟩
abbrev S8500000x2 : Shape := ⟨2, ![8500000, 2]⟩
abbrev S1x2 : Shape := ⟨2, ![1, 2]⟩
abbrev S500000x10 : Shape := ⟨2, ![500000, 10]⟩
abbrev S5000x10 : Shape := ⟨2, ![5000, 10]⟩
abbrev S2x10 : Shape := ⟨2, ![2, 10]⟩
abbrev S1x10 : Shape := ⟨2, ![1, 10]⟩

abbrev nBuf : Space → Nat
  | .hbm => 110
  | .vmem => 40
  | .smem => 0
  | _ => 0

abbrev bufTy : (tb : Table) → Fin (tcTables nBuf tb) → BufTy
  | .hbm, ⟨0, _⟩ => ⟨S500000x128, .f32⟩
  | .hbm, ⟨1, _⟩ => ⟨S2x8000000, .i32⟩
  | .hbm, ⟨2, _⟩ => ⟨S4x128, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S2x4, .f32⟩
  | .hbm, ⟨7, _⟩ => ⟨S2, .f32⟩
  | .hbm, ⟨8, _⟩ => ⟨S10x2, .f32⟩
  | .hbm, ⟨9, _⟩ => ⟨S10, .f32⟩
  | .hbm, ⟨10, _⟩ => ⟨S500000, .i32⟩
  | .hbm, ⟨11, _⟩ => ⟨S1x8000000, .i32⟩
  | .hbm, ⟨12, _⟩ => ⟨S8000000, .i32⟩
  | .hbm, ⟨13, _⟩ => ⟨S8500000, .i32⟩
  | .hbm, ⟨14, _⟩ => ⟨S1x8000000, .i32⟩
  | .hbm, ⟨15, _⟩ => ⟨S8000000, .i32⟩
  | .hbm, ⟨16, _⟩ => ⟨S8500000, .i32⟩
  | .hbm, ⟨17, _⟩ => ⟨S_, .f32⟩
  | .hbm, ⟨18, _⟩ => ⟨S8500000, .f32⟩
  | .hbm, ⟨19, _⟩ => ⟨S_, .f32⟩
  | .hbm, ⟨20, _⟩ => ⟨S500000, .f32⟩
  | .hbm, ⟨21, _⟩ => ⟨S8500000x1, .i32⟩
  | .hbm, ⟨22, _⟩ => ⟨S500000, .f32⟩
  | .hbm, ⟨23, _⟩ => ⟨S_, .f32⟩
  | .hbm, ⟨24, _⟩ => ⟨S500000, .f32⟩
  | .hbm, ⟨25, _⟩ => ⟨S500000, .i1⟩
  | .hbm, ⟨26, _⟩ => ⟨S500000, .f32⟩
  | .hbm, ⟨27, _⟩ => ⟨S_, .f32⟩
  | .hbm, ⟨28, _⟩ => ⟨S_, .f32⟩
  | .hbm, ⟨29, _⟩ => ⟨S500000, .f32⟩
  | .hbm, ⟨30, _⟩ => ⟨S500000, .f32⟩
  | .hbm, ⟨31, _⟩ => ⟨S_, .i32⟩
  | .hbm, ⟨32, _⟩ => ⟨S8500000, .i32⟩
  | .hbm, ⟨33, _⟩ => ⟨S8500000, .i1⟩
  | .hbm, ⟨34, _⟩ => ⟨S_, .i32⟩
  | .hbm, ⟨35, _⟩ => ⟨S8500000, .i32⟩
  | .hbm, ⟨36, _⟩ => ⟨S8500000, .i32⟩
  | .hbm, ⟨37, _⟩ => ⟨S8500000, .i32⟩
  | .hbm, ⟨38, _⟩ => ⟨S8500000x1, .i32⟩
  | .hbm, ⟨39, _⟩ => ⟨S8500000, .f32⟩
  | .hbm, ⟨40, _⟩ => ⟨S_, .i32⟩
  | .hbm, ⟨41, _⟩ => ⟨S8500000, .i32⟩
  | .hbm, ⟨42, _⟩ => ⟨S8500000, .i1⟩
  | .hbm, ⟨43, _⟩ => ⟨S_, .i32⟩
  | .hbm, ⟨44, _⟩ => ⟨S8500000, .i32⟩
  | .hbm, ⟨45, _⟩ => ⟨S8500000, .i32⟩
  | .hbm, ⟨46, _⟩ => ⟨S8500000, .i32⟩
  | .hbm, ⟨47, _⟩ => ⟨S8500000x1, .i32⟩
  | .hbm, ⟨48, _⟩ => ⟨S8500000, .f32⟩
  | .hbm, ⟨49, _⟩ => ⟨S8500000, .f32⟩
  | .hbm, ⟨50, _⟩ => ⟨S500000x4, .f32⟩
  | .hbm, ⟨51, _⟩ => ⟨S_, .i32⟩
  | .hbm, ⟨52, _⟩ => ⟨S8500000, .i32⟩
  | .hbm, ⟨53, _⟩ => ⟨S8500000, .i1⟩
  | .hbm, ⟨54, _⟩ => ⟨S_, .i32⟩
  | .hbm, ⟨55, _⟩ => ⟨S8500000, .i32⟩
  | .hbm, ⟨56, _⟩ => ⟨S8500000, .i32⟩
  | .hbm, ⟨57, _⟩ => ⟨S8500000, .i32⟩
  | .hbm, ⟨58, _⟩ => ⟨S8500000x1, .i32⟩
  | .hbm, ⟨59, _⟩ => ⟨S8500000x4, .f32⟩
  | .hbm, ⟨60, _⟩ => ⟨S8500000x1, .f32⟩
  | .hbm, ⟨61, _⟩ => ⟨S8500000x4, .f32⟩
  | .hbm, ⟨62, _⟩ => ⟨S8500000x4, .f32⟩
  | .hbm, ⟨63, _⟩ => ⟨S_, .f32⟩
  | .hbm, ⟨64, _⟩ => ⟨S500000x4, .f32⟩
  | .hbm, ⟨65, _⟩ => ⟨S8500000x1, .i32⟩
  | .hbm, ⟨66, _⟩ => ⟨S500000x4, .f32⟩
  | .hbm, ⟨67, _⟩ => ⟨S1x4, .f32⟩
  | .hbm, ⟨68, _⟩ => ⟨S500000x4, .f32⟩
  | .hbm, ⟨69, _⟩ => ⟨S500000x4, .f32⟩
  | .hbm, ⟨70, _⟩ => ⟨S_, .i32⟩
  | .hbm, ⟨71, _⟩ => ⟨S8500000, .i32⟩
  | .hbm, ⟨72, _⟩ => ⟨S8500000, .i1⟩
  | .hbm, ⟨73, _⟩ => ⟨S_, .i32⟩
  | .hbm, ⟨74, _⟩ => ⟨S8500000, .i32⟩
  | .hbm, ⟨75, _⟩ => ⟨S8500000, .i32⟩
  | .hbm, ⟨76, _⟩ => ⟨S8500000, .i32⟩
  | .hbm, ⟨77, _⟩ => ⟨S8500000x1, .i32⟩
  | .hbm, ⟨78, _⟩ => ⟨S8500000x4, .f32⟩
  | .hbm, ⟨79, _⟩ => ⟨S8500000x1, .f32⟩
  | .hbm, ⟨80, _⟩ => ⟨S8500000x4, .f32⟩
  | .hbm, ⟨81, _⟩ => ⟨S8500000x4, .f32⟩
  | .hbm, ⟨82, _⟩ => ⟨S_, .f32⟩
  | .hbm, ⟨83, _⟩ => ⟨S500000x4, .f32⟩
  | .hbm, ⟨84, _⟩ => ⟨S8500000x1, .i32⟩
  | .hbm, ⟨85, _⟩ => ⟨S500000x4, .f32⟩
  | .hbm, ⟨86, _⟩ => ⟨S1x4, .f32⟩
  | .hbm, ⟨87, _⟩ => ⟨S500000x4, .f32⟩
  | .hbm, ⟨88, _⟩ => ⟨S500000x2, .f32⟩
  | .hbm, ⟨89, _⟩ => ⟨S_, .i32⟩
  | .hbm, ⟨90, _⟩ => ⟨S8500000, .i32⟩
  | .hbm, ⟨91, _⟩ => ⟨S8500000, .i1⟩
  | .hbm, ⟨92, _⟩ => ⟨S_, .i32⟩
  | .hbm, ⟨93, _⟩ => ⟨S8500000, .i32⟩
  | .hbm, ⟨94, _⟩ => ⟨S8500000, .i32⟩
  | .hbm, ⟨95, _⟩ => ⟨S8500000, .i32⟩
  | .hbm, ⟨96, _⟩ => ⟨S8500000x1, .i32⟩
  | .hbm, ⟨97, _⟩ => ⟨S8500000x2, .f32⟩
  | .hbm, ⟨98, _⟩ => ⟨S8500000x1, .f32⟩
  | .hbm, ⟨99, _⟩ => ⟨S8500000x2, .f32⟩
  | .hbm, ⟨100, _⟩ => ⟨S8500000x2, .f32⟩
  | .hbm, ⟨101, _⟩ => ⟨S_, .f32⟩
  | .hbm, ⟨102, _⟩ => ⟨S500000x2, .f32⟩
  | .hbm, ⟨103, _⟩ => ⟨S8500000x1, .i32⟩
  | .hbm, ⟨104, _⟩ => ⟨S500000x2, .f32⟩
  | .hbm, ⟨105, _⟩ => ⟨S1x2, .f32⟩
  | .hbm, ⟨106, _⟩ => ⟨S500000x2, .f32⟩
  | .hbm, ⟨107, _⟩ => ⟨S500000x10, .f32⟩
  | .hbm, ⟨108, _⟩ => ⟨S1x10, .f32⟩
  | .hbm, ⟨109, _⟩ => ⟨S500000x10, .f32⟩
  | .local _ .vmem, ⟨0, _⟩ => ⟨S5000x128, .f32⟩
  | .local _ .vmem, ⟨1, _⟩ => ⟨S5000x128, .f32⟩
  | .local _ .vmem, ⟨2, _⟩ => ⟨S4x128, .f32⟩
  | .local _ .vmem, ⟨3, _⟩ => ⟨S5000x4, .f32⟩
  | .local _ .vmem, ⟨4, _⟩ => ⟨S5000x4, .f32⟩
  | .local _ .vmem, ⟨5, _⟩ => ⟨S5000x4, .f32⟩
  | .local _ .vmem, ⟨6, _⟩ => ⟨S5000x4, .f32⟩
  | .local _ .vmem, ⟨7, _⟩ => ⟨S1x4, .f32⟩
  | .local _ .vmem, ⟨8, _⟩ => ⟨S5000x4, .f32⟩
  | .local _ .vmem, ⟨9, _⟩ => ⟨S5000x4, .f32⟩
  | .local _ .vmem, ⟨10, _⟩ => ⟨S5000x4, .f32⟩
  | .local _ .vmem, ⟨11, _⟩ => ⟨S5000x4, .f32⟩
  | .local _ .vmem, ⟨12, _⟩ => ⟨S4x4, .f32⟩
  | .local _ .vmem, ⟨13, _⟩ => ⟨S5000x4, .f32⟩
  | .local _ .vmem, ⟨14, _⟩ => ⟨S5000x4, .f32⟩
  | .local _ .vmem, ⟨15, _⟩ => ⟨S5000x4, .f32⟩
  | .local _ .vmem, ⟨16, _⟩ => ⟨S5000x4, .f32⟩
  | .local _ .vmem, ⟨17, _⟩ => ⟨S1x4, .f32⟩
  | .local _ .vmem, ⟨18, _⟩ => ⟨S5000x4, .f32⟩
  | .local _ .vmem, ⟨19, _⟩ => ⟨S5000x4, .f32⟩
  | .local _ .vmem, ⟨20, _⟩ => ⟨S5000x4, .f32⟩
  | .local _ .vmem, ⟨21, _⟩ => ⟨S5000x4, .f32⟩
  | .local _ .vmem, ⟨22, _⟩ => ⟨S2x4, .f32⟩
  | .local _ .vmem, ⟨23, _⟩ => ⟨S5000x2, .f32⟩
  | .local _ .vmem, ⟨24, _⟩ => ⟨S5000x2, .f32⟩
  | .local _ .vmem, ⟨25, _⟩ => ⟨S5000x2, .f32⟩
  | .local _ .vmem, ⟨26, _⟩ => ⟨S5000x2, .f32⟩
  | .local _ .vmem, ⟨27, _⟩ => ⟨S1x2, .f32⟩
  | .local _ .vmem, ⟨28, _⟩ => ⟨S5000x2, .f32⟩
  | .local _ .vmem, ⟨29, _⟩ => ⟨S5000x2, .f32⟩
  | .local _ .vmem, ⟨30, _⟩ => ⟨S5000x2, .f32⟩
  | .local _ .vmem, ⟨31, _⟩ => ⟨S5000x2, .f32⟩
  | .local _ .vmem, ⟨32, _⟩ => ⟨S10x2, .f32⟩
  | .local _ .vmem, ⟨33, _⟩ => ⟨S5000x10, .f32⟩
  | .local _ .vmem, ⟨34, _⟩ => ⟨S5000x10, .f32⟩
  | .local _ .vmem, ⟨35, _⟩ => ⟨S5000x10, .f32⟩
  | .local _ .vmem, ⟨36, _⟩ => ⟨S5000x10, .f32⟩
  | .local _ .vmem, ⟨37, _⟩ => ⟨S1x10, .f32⟩
  | .local _ .vmem, ⟨38, _⟩ => ⟨S5000x10, .f32⟩
  | .local _ .vmem, ⟨39, _⟩ => ⟨S5000x10, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x4 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x10 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x10 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x10 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x10 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x8000000_S1x8000000_0_0 : S2x8000000.Slices ![0, 0] S1x8000000
  shapeCasts_S1x8000000_S8000000 : S1x8000000.ShapeCasts S8000000
  concatenates_S8000000_S500000_S8500000_d0 : Shape.Concatenates [S8000000, S500000] S8500000 0
  slices_S2x8000000_S1x8000000_1_0 : S2x8000000.Slices ![1, 0] S1x8000000
  bcast_S_S8500000 : S_.BroadcastsInDim S8500000 (![] : Fin 0 → Fin S8500000.rank)
  bcast_S_S500000 : S_.BroadcastsInDim S500000 (![] : Fin 0 → Fin S500000.rank)
  bcast_S8500000_S8500000x1_0 : S8500000.BroadcastsInDim S8500000x1 (![0] : Fin 1 → Fin S8500000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  transposes_S4x128_p1_0_S128x4 : S4x128.Transposes [1, 0] S128x4
  inb_S5000x4_S5000x4_0_0 : ∀ a, (![0, 0] : Fin 2 → Nat) a + S5000x4.size a ≤ S5000x4.size a
  h_S5000x4 : 0 < S5000x4.numel
  bcast_S8500000x1_S8500000x4_0_1 : S8500000x1.BroadcastsInDim S8500000x4 (![0, 1] : Fin 2 → Fin S8500000x4.rank)
  bcast_S_S500000x4 : S_.BroadcastsInDim S500000x4 (![] : Fin 0 → Fin S500000x4.rank)
  shapeCasts_S4_S1x4 : S4.ShapeCasts S1x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  shapeCasts_S5000x4_S5000x4 : S5000x4.ShapeCasts S5000x4
  inb_S4x4_S4x4_0_0 : ∀ a, (![0, 0] : Fin 2 → Nat) a + S4x4.size a ≤ S4x4.size a
  h_S4x4 : 0 < S4x4.numel
  transposes_S4x4_p1_0_S4x4 : S4x4.Transposes [1, 0] S4x4
  inb_S2x4_S2x4_0_0 : ∀ a, (![0, 0] : Fin 2 → Nat) a + S2x4.size a ≤ S2x4.size a
  h_S2x4 : 0 < S2x4.numel
  transposes_S2x4_p1_0_S4x2 : S2x4.Transposes [1, 0] S4x2
  inb_S5000x2_S5000x2_0_0 : ∀ a, (![0, 0] : Fin 2 → Nat) a + S5000x2.size a ≤ S5000x2.size a
  h_S5000x2 : 0 < S5000x2.numel
  bcast_S8500000x1_S8500000x2_0_1 : S8500000x1.BroadcastsInDim S8500000x2 (![0, 1] : Fin 2 → Fin S8500000x2.rank)
  bcast_S_S500000x2 : S_.BroadcastsInDim S500000x2 (![] : Fin 0 → Fin S500000x2.rank)
  shapeCasts_S2_S1x2 : S2.ShapeCasts S1x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  shapeCasts_S5000x2_S5000x2 : S5000x2.ShapeCasts S5000x2
  inb_S10x2_S10x2_0_0 : ∀ a, (![0, 0] : Fin 2 → Nat) a + S10x2.size a ≤ S10x2.size a
  h_S10x2 : 0 < S10x2.numel
  transposes_S10x2_p1_0_S2x10 : S10x2.Transposes [1, 0] S2x10
  inb_S5000x10_S5000x10_0_0 : ∀ a, (![0, 0] : Fin 2 → Nat) a + S5000x10.size a ≤ S5000x10.size a
  h_S5000x10 : 0 < S5000x10.numel
  shapeCasts_S10_S1x10 : S10.ShapeCasts S1x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  shapeCasts_S5000x10_S5000x10 : S5000x10.ShapeCasts S5000x10
  scatter_S500000_S8500000x1_S8500000_n_0_0_1_wf : ScatterDims.WF S500000 S8500000x1 S8500000 [] [0] [0] 1
  gather_S500000_S8500000x1_S8500000_n_0_n_n_0_1_1_wf : GatherDims.WF S500000 S8500000x1 S8500000 [] [0] [] [0] [] 1 ![1]
  dot_S5000x128_S128x4_S5000x4_1_0_0_1_n_n_wf : DotDims.WF S5000x128 S128x4 S5000x4 [1] [0] [0] [1] [] []
  gather_S500000x4_S8500000x1_S8500000x4_1_0_n_n_0_1_14_wf : GatherDims.WF S500000x4 S8500000x1 S8500000x4 [1] [0] [] [0] [] 1 ![1, 4]
  scatter_S500000x4_S8500000x1_S8500000x4_1_0_0_1_wf : ScatterDims.WF S500000x4 S8500000x1 S8500000x4 [1] [0] [0] 1
  dot_S5000x4_S4x4_S5000x4_1_0_0_1_n_n_wf : DotDims.WF S5000x4 S4x4 S5000x4 [1] [0] [0] [1] [] []
  dot_S5000x4_S4x2_S5000x2_1_0_0_1_n_n_wf : DotDims.WF S5000x4 S4x2 S5000x2 [1] [0] [0] [1] [] []
  gather_S500000x2_S8500000x1_S8500000x2_1_0_n_n_0_1_12_wf : GatherDims.WF S500000x2 S8500000x1 S8500000x2 [1] [0] [] [0] [] 1 ![1, 2]
  scatter_S500000x2_S8500000x1_S8500000x2_1_0_0_1_wf : ScatterDims.WF S500000x2 S8500000x1 S8500000x2 [1] [0] [0] 1
  dot_S5000x2_S2x10_S5000x10_1_0_0_1_n_n_wf : DotDims.WF S5000x2 S2x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x4.size a ≤ S500000x4.size a
  hwx0_2 : ∀ i : grid0.Coords, EltTy.bits .f32 = 32 ∨ (Rect.block (s := S500000x4) S5000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x4.size a ≤ S500000x4.size a
  hwx1_0 : ∀ i : grid1.Coords, EltTy.bits .f32 = 32 ∨ (Rect.block (s := S500000x4) S5000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4.size a ≤ S1x4.size a
  hwx1_1 : ∀ i : grid1.Coords, EltTy.bits .f32 = 32 ∨ (Rect.block (s := S1x4) S1x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x4.size a ≤ S500000x4.size a
  hwx1_2 : ∀ i : grid1.Coords, EltTy.bits .f32 = 32 ∨ (Rect.block (s := S500000x4) S5000x4.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x4.size a ≤ S500000x4.size a
  hwx2_0 : ∀ i : grid2.Coords, EltTy.bits .f32 = 32 ∨ (Rect.block (s := S500000x4) S5000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x4.size a ≤ S4x4.size a
  hwx2_1 : ∀ i : grid2.Coords, EltTy.bits .f32 = 32 ∨ (Rect.block (s := S4x4) S4x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x4.size a ≤ S500000x4.size a
  hwx2_2 : ∀ i : grid2.Coords, EltTy.bits .f32 = 32 ∨ (Rect.block (s := S500000x4) S5000x4.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x4.size a ≤ S500000x4.size a
  hwx3_0 : ∀ i : grid3.Coords, EltTy.bits .f32 = 32 ∨ (Rect.block (s := S500000x4) S5000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4.size a ≤ S1x4.size a
  hwx3_1 : ∀ i : grid3.Coords, EltTy.bits .f32 = 32 ∨ (Rect.block (s := S1x4) S1x4.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x4.size a ≤ S500000x4.size a
  hwx3_2 : ∀ i : grid3.Coords, EltTy.bits .f32 = 32 ∨ (Rect.block (s := S500000x4) S5000x4.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x4.size a ≤ S500000x4.size a
  hwx4_0 : ∀ i : grid4.Coords, EltTy.bits .f32 = 32 ∨ (Rect.block (s := S500000x4) S5000x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2x4.size a ≤ S2x4.size a
  hwx4_1 : ∀ i : grid4.Coords, EltTy.bits .f32 = 32 ∨ (Rect.block (s := S2x4) S2x4.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x2.size a ≤ S500000x2.size a
  hwx4_2 : ∀ i : grid4.Coords, EltTy.bits .f32 = 32 ∨ (Rect.block (s := S500000x2) S5000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x2.size a ≤ S500000x2.size a
  hwx5_0 : ∀ i : grid5.Coords, EltTy.bits .f32 = 32 ∨ (Rect.block (s := S500000x2) S5000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x2.size a ≤ S500000x2.size a
  hwx5_2 : ∀ i : grid5.Coords, EltTy.bits .f32 = 32 ∨ (Rect.block (s := S500000x2) S5000x2.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x2.size a ≤ S500000x2.size a
  hwx6_0 : ∀ i : grid6.Coords, EltTy.bits .f32 = 32 ∨ (Rect.block (s := S500000x2) S5000x2.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10x2.size a ≤ S10x2.size a
  hwx6_1 : ∀ i : grid6.Coords, EltTy.bits .f32 = 32 ∨ (Rect.block (s := S10x2) S10x2.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x10.size a ≤ S500000x10.size a
  hwx6_2 : ∀ i : grid6.Coords, EltTy.bits .f32 = 32 ∨ (Rect.block (s := S500000x10) S5000x10.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x10.size a ≤ S500000x10.size a
  hwx7_0 : ∀ i : grid7.Coords, EltTy.bits .f32 = 32 ∨ (Rect.block (s := S500000x10) S5000x10.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x10.size a ≤ S1x10.size a
  hwx7_1 : ∀ i : grid7.Coords, EltTy.bits .f32 = 32 ∨ (Rect.block (s := S1x10) S1x10.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x10.size a ≤ S500000x10.size a
  hwx7_2 : ∀ i : grid7.Coords, EltTy.bits .f32 = 32 ∨ (Rect.block (s := S500000x10) S5000x10.size (cc7_transform_2 i) (hinb7_2 i)).WholeWords (EltTy.packing .f32)

variable [Facts₀]

def scatter_S500000_S8500000x1_S8500000_n_0_0_1 : ScatterDims S500000 S8500000x1 S8500000 where
  updateWindowDims := []
  insertedWindowDims := [0]
  scatterDimsToOperandDims := [0]
  indexVectorDim := 1
  wf := scatter_S500000_S8500000x1_S8500000_n_0_0_1_wf
def gather_S500000_S8500000x1_S8500000_n_0_n_n_0_1_1 : GatherDims S500000 S8500000x1 S8500000 where
  offsetDims := []
  collapsedSliceDims := [0]
  operandBatchingDims := []
  startIndicesBatchingDims := []
  startIndexMap := [0]
  indexVectorDim := 1
  sliceSizes := ![1]
  wf := gather_S500000_S8500000x1_S8500000_n_0_n_n_0_1_1_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def gather_S500000x4_S8500000x1_S8500000x4_1_0_n_n_0_1_14 : GatherDims S500000x4 S8500000x1 S8500000x4 where
  offsetDims := [1]
  collapsedSliceDims := [0]
  operandBatchingDims := []
  startIndicesBatchingDims := []
  startIndexMap := [0]
  indexVectorDim := 1
  sliceSizes := ![1, 4]
  wf := gather_S500000x4_S8500000x1_S8500000x4_1_0_n_n_0_1_14_wf
def scatter_S500000x4_S8500000x1_S8500000x4_1_0_0_1 : ScatterDims S500000x4 S8500000x1 S8500000x4 where
  updateWindowDims := [1]
  insertedWindowDims := [0]
  scatterDimsToOperandDims := [0]
  indexVectorDim := 1
  wf := scatter_S500000x4_S8500000x1_S8500000x4_1_0_0_1_wf
def dot_S5000x4_S4x4_S5000x4_1_0_0_1_n_n : DotDims S5000x4 S4x4 S5000x4 where
  lhsContracting := [1]
  rhsContracting := [0]
  lhsNonContracting := [0]
  rhsNonContracting := [1]
  lhsBatch := []
  rhsBatch := []
  wf := dot_S5000x4_S4x4_S5000x4_1_0_0_1_n_n_wf
def dot_S5000x4_S4x2_S5000x2_1_0_0_1_n_n : DotDims S5000x4 S4x2 S5000x2 where
  lhsContracting := [1]
  rhsContracting := [0]
  lhsNonContracting := [0]
  rhsNonContracting := [1]
  lhsBatch := []
  rhsBatch := []
  wf := dot_S5000x4_S4x2_S5000x2_1_0_0_1_n_n_wf
def gather_S500000x2_S8500000x1_S8500000x2_1_0_n_n_0_1_12 : GatherDims S500000x2 S8500000x1 S8500000x2 where
  offsetDims := [1]
  collapsedSliceDims := [0]
  operandBatchingDims := []
  startIndicesBatchingDims := []
  startIndexMap := [0]
  indexVectorDim := 1
  sliceSizes := ![1, 2]
  wf := gather_S500000x2_S8500000x1_S8500000x2_1_0_n_n_0_1_12_wf
def scatter_S500000x2_S8500000x1_S8500000x2_1_0_0_1 : ScatterDims S500000x2 S8500000x1 S8500000x2 where
  updateWindowDims := [1]
  insertedWindowDims := [0]
  scatterDimsToOperandDims := [0]
  indexVectorDim := 1
  wf := scatter_S500000x2_S8500000x1_S8500000x2_1_0_0_1_wf
def dot_S5000x2_S2x10_S5000x10_1_0_0_1_n_n : DotDims S5000x2 S2x10 S5000x10 where
  lhsContracting := [1]
  rhsContracting := [0]
  lhsNonContracting := [0]
  rhsNonContracting := [1]
  lhsBatch := []
  rhsBatch := []
  wf := dot_S5000x2_S2x10_S5000x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S4x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x4.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S2x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S10x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S5000x10.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v78) S5000x10.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v79) S1x10.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v80) S5000x10.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S500000x128 : Shape := ⟨2, ![500000, 128]⟩
abbrev S2x8000000 : Shape := ⟨2, ![2, 8000000]⟩
abbrev S4x128 : Shape := ⟨2, ![4, 128]⟩
abbrev S4 : Shape := ⟨1, ![4]⟩
abbrev S4x4 : Shape := ⟨2, ![4, 4]⟩
abbrev S2x4 : Shape := ⟨2, ![2, 4]⟩
abbrev S2 : Shape := ⟨1, ![2]⟩
abbrev S10x2 : Shape := ⟨2, ![10, 2]⟩
abbrev S10 : Shape := ⟨1, ![10]⟩
abbrev S500000 : Shape := ⟨1, ![500000]⟩
abbrev S1x8000000 : Shape := ⟨2, ![1, 8000000]⟩
abbrev S8000000 : Shape := ⟨1, ![8000000]⟩
abbrev S8500000 : Shape := ⟨1, ![8500000]⟩
abbrev S_ : Shape := ⟨0, ![]⟩
abbrev S8500000x1 : Shape := ⟨2, ![8500000, 1]⟩
abbrev S128x4 : Shape := ⟨2, ![128, 4]⟩
abbrev S500000x4 : Shape := ⟨2, ![500000, 4]⟩
abbrev S8500000x4 : Shape := ⟨2, ![8500000, 4]⟩
abbrev S1x4 : Shape := ⟨2, ![1, 4]⟩
abbrev S4x2 : Shape := ⟨2, ![4, 2]⟩
abbrev S500000x2 : Shape := ⟨2, ![500000, 2]⟩
abbrev S8500000x2 : Shape := ⟨2, ![8500000, 2]⟩
abbrev S1x2 : Shape := ⟨2, ![1, 2]⟩
abbrev S2x10 : Shape := ⟨2, ![2, 10]⟩
abbrev S500000x10 : Shape := ⟨2, ![500000, 10]⟩
abbrev S1x10 : Shape := ⟨2, ![1, 10]⟩

abbrev nBuf : Space → Nat
  | .hbm => 121
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S2x8000000, .i32⟩
  | .hbm, ⟨2, _⟩ => ⟨S4x128, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S2x4, .f32⟩
  | .hbm, ⟨7, _⟩ => ⟨S2, .f32⟩
  | .hbm, ⟨8, _⟩ => ⟨S10x2, .f32⟩
  | .hbm, ⟨9, _⟩ => ⟨S10, .f32⟩
  | .hbm, ⟨10, _⟩ => ⟨S500000, .i32⟩
  | .hbm, ⟨11, _⟩ => ⟨S1x8000000, .i32⟩
  | .hbm, ⟨12, _⟩ => ⟨S8000000, .i32⟩
  | .hbm, ⟨13, _⟩ => ⟨S8500000, .i32⟩
  | .hbm, ⟨14, _⟩ => ⟨S1x8000000, .i32⟩
  | .hbm, ⟨15, _⟩ => ⟨S8000000, .i32⟩
  | .hbm, ⟨16, _⟩ => ⟨S8500000, .i32⟩
  | .hbm, ⟨17, _⟩ => ⟨S_, .f32⟩
  | .hbm, ⟨18, _⟩ => ⟨S8500000, .f32⟩
  | .hbm, ⟨19, _⟩ => ⟨S_, .f32⟩
  | .hbm, ⟨20, _⟩ => ⟨S500000, .f32⟩
  | .hbm, ⟨21, _⟩ => ⟨S8500000x1, .i32⟩
  | .hbm, ⟨22, _⟩ => ⟨S500000, .f32⟩
  | .hbm, ⟨23, _⟩ => ⟨S_, .f32⟩
  | .hbm, ⟨24, _⟩ => ⟨S500000, .f32⟩
  | .hbm, ⟨25, _⟩ => ⟨S500000, .i1⟩
  | .hbm, ⟨26, _⟩ => ⟨S500000, .f32⟩
  | .hbm, ⟨27, _⟩ => ⟨S_, .f32⟩
  | .hbm, ⟨28, _⟩ => ⟨S_, .f32⟩
  | .hbm, ⟨29, _⟩ => ⟨S500000, .f32⟩
  | .hbm, ⟨30, _⟩ => ⟨S500000, .f32⟩
  | .hbm, ⟨31, _⟩ => ⟨S_, .i32⟩
  | .hbm, ⟨32, _⟩ => ⟨S8500000, .i32⟩
  | .hbm, ⟨33, _⟩ => ⟨S8500000, .i1⟩
  | .hbm, ⟨34, _⟩ => ⟨S_, .i32⟩
  | .hbm, ⟨35, _⟩ => ⟨S8500000, .i32⟩
  | .hbm, ⟨36, _⟩ => ⟨S8500000, .i32⟩
  | .hbm, ⟨37, _⟩ => ⟨S8500000, .i32⟩
  | .hbm, ⟨38, _⟩ => ⟨S8500000x1, .i32⟩
  | .hbm, ⟨39, _⟩ => ⟨S8500000, .f32⟩
  | .hbm, ⟨40, _⟩ => ⟨S_, .i32⟩
  | .hbm, ⟨41, _⟩ => ⟨S8500000, .i32⟩
  | .hbm, ⟨42, _⟩ => ⟨S8500000, .i1⟩
  | .hbm, ⟨43, _⟩ => ⟨S_, .i32⟩
  | .hbm, ⟨44, _⟩ => ⟨S8500000, .i32⟩
  | .hbm, ⟨45, _⟩ => ⟨S8500000, .i32⟩
  | .hbm, ⟨46, _⟩ => ⟨S8500000, .i32⟩
  | .hbm, ⟨47, _⟩ => ⟨S8500000x1, .i32⟩
  | .hbm, ⟨48, _⟩ => ⟨S8500000, .f32⟩
  | .hbm, ⟨49, _⟩ => ⟨S8500000, .f32⟩
  | .hbm, ⟨50, _⟩ => ⟨S128x4, .f32⟩
  | .hbm, ⟨51, _⟩ => ⟨S500000x4, .f32⟩
  | .hbm, ⟨52, _⟩ => ⟨S_, .i32⟩
  | .hbm, ⟨53, _⟩ => ⟨S8500000, .i32⟩
  | .hbm, ⟨54, _⟩ => ⟨S8500000, .i1⟩
  | .hbm, ⟨55, _⟩ => ⟨S_, .i32⟩
  | .hbm, ⟨56, _⟩ => ⟨S8500000, .i32⟩
  | .hbm, ⟨57, _⟩ => ⟨S8500000, .i32⟩
  | .hbm, ⟨58, _⟩ => ⟨S8500000, .i32⟩
  | .hbm, ⟨59, _⟩ => ⟨S8500000x1, .i32⟩
  | .hbm, ⟨60, _⟩ => ⟨S8500000x4, .f32⟩
  | .hbm, ⟨61, _⟩ => ⟨S8500000x1, .f32⟩
  | .hbm, ⟨62, _⟩ => ⟨S8500000x4, .f32⟩
  | .hbm, ⟨63, _⟩ => ⟨S8500000x4, .f32⟩
  | .hbm, ⟨64, _⟩ => ⟨S_, .f32⟩
  | .hbm, ⟨65, _⟩ => ⟨S500000x4, .f32⟩
  | .hbm, ⟨66, _⟩ => ⟨S8500000x1, .i32⟩
  | .hbm, ⟨67, _⟩ => ⟨S500000x4, .f32⟩
  | .hbm, ⟨68, _⟩ => ⟨S1x4, .f32⟩
  | .hbm, ⟨69, _⟩ => ⟨S500000x4, .f32⟩
  | .hbm, ⟨70, _⟩ => ⟨S500000x4, .f32⟩
  | .hbm, ⟨71, _⟩ => ⟨S500000x4, .f32⟩
  | .hbm, ⟨72, _⟩ => ⟨S4x4, .f32⟩
  | .hbm, ⟨73, _⟩ => ⟨S500000x4, .f32⟩
  | .hbm, ⟨74, _⟩ => ⟨S_, .i32⟩
  | .hbm, ⟨75, _⟩ => ⟨S8500000, .i32⟩
  | .hbm, ⟨76, _⟩ => ⟨S8500000, .i1⟩
  | .hbm, ⟨77, _⟩ => ⟨S_, .i32⟩
  | .hbm, ⟨78, _⟩ => ⟨S8500000, .i32⟩
  | .hbm, ⟨79, _⟩ => ⟨S8500000, .i32⟩
  | .hbm, ⟨80, _⟩ => ⟨S8500000, .i32⟩
  | .hbm, ⟨81, _⟩ => ⟨S8500000x1, .i32⟩
  | .hbm, ⟨82, _⟩ => ⟨S8500000x4, .f32⟩
  | .hbm, ⟨83, _⟩ => ⟨S8500000x1, .f32⟩
  | .hbm, ⟨84, _⟩ => ⟨S8500000x4, .f32⟩
  | .hbm, ⟨85, _⟩ => ⟨S8500000x4, .f32⟩
  | .hbm, ⟨86, _⟩ => ⟨S_, .f32⟩
  | .hbm, ⟨87, _⟩ => ⟨S500000x4, .f32⟩
  | .hbm, ⟨88, _⟩ => ⟨S8500000x1, .i32⟩
  | .hbm, ⟨89, _⟩ => ⟨S500000x4, .f32⟩
  | .hbm, ⟨90, _⟩ => ⟨S1x4, .f32⟩
  | .hbm, ⟨91, _⟩ => ⟨S500000x4, .f32⟩
  | .hbm, ⟨92, _⟩ => ⟨S500000x4, .f32⟩
  | .hbm, ⟨93, _⟩ => ⟨S500000x4, .f32⟩
  | .hbm, ⟨94, _⟩ => ⟨S4x2, .f32⟩
  | .hbm, ⟨95, _⟩ => ⟨S500000x2, .f32⟩
  | .hbm, ⟨96, _⟩ => ⟨S_, .i32⟩
  | .hbm, ⟨97, _⟩ => ⟨S8500000, .i32⟩
  | .hbm, ⟨98, _⟩ => ⟨S8500000, .i1⟩
  | .hbm, ⟨99, _⟩ => ⟨S_, .i32⟩
  | .hbm, ⟨100, _⟩ => ⟨S8500000, .i32⟩
  | .hbm, ⟨101, _⟩ => ⟨S8500000, .i32⟩
  | .hbm, ⟨102, _⟩ => ⟨S8500000, .i32⟩
  | .hbm, ⟨103, _⟩ => ⟨S8500000x1, .i32⟩
  | .hbm, ⟨104, _⟩ => ⟨S8500000x2, .f32⟩
  | .hbm, ⟨105, _⟩ => ⟨S8500000x1, .f32⟩
  | .hbm, ⟨106, _⟩ => ⟨S8500000x2, .f32⟩
  | .hbm, ⟨107, _⟩ => ⟨S8500000x2, .f32⟩
  | .hbm, ⟨108, _⟩ => ⟨S_, .f32⟩
  | .hbm, ⟨109, _⟩ => ⟨S500000x2, .f32⟩
  | .hbm, ⟨110, _⟩ => ⟨S8500000x1, .i32⟩
  | .hbm, ⟨111, _⟩ => ⟨S500000x2, .f32⟩
  | .hbm, ⟨112, _⟩ => ⟨S1x2, .f32⟩
  | .hbm, ⟨113, _⟩ => ⟨S500000x2, .f32⟩
  | .hbm, ⟨114, _⟩ => ⟨S500000x2, .f32⟩
  | .hbm, ⟨115, _⟩ => ⟨S500000x2, .f32⟩
  | .hbm, ⟨116, _⟩ => ⟨S2x10, .f32⟩
  | .hbm, ⟨117, _⟩ => ⟨S500000x10, .f32⟩
  | .hbm, ⟨118, _⟩ => ⟨S1x10, .f32⟩
  | .hbm, ⟨119, _⟩ => ⟨S500000x10, .f32⟩
  | .hbm, ⟨120, _⟩ => ⟨S500000x10, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_12 : Ref sig .tc := ⟨.hbm, 96, rfl⟩
abbrev main_v70 : Ref sig .tc := ⟨.hbm, 97, rfl⟩
abbrev main_v71 : Ref sig .tc := ⟨.hbm, 98, rfl⟩
abbrev main_c_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_14 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  concatenates_S8000000_S500000_S8500000_d0 : Shape.Concatenates [S8000000, S500000] S8500000 0
  slices_S2x8000000_S1x8000000_1_0 : S2x8000000.Slices ![1, 0] S1x8000000
  bcast_S_S8500000 : S_.BroadcastsInDim S8500000 (![] : Fin 0 → Fin S8500000.rank)
  bcast_S_S500000 : S_.BroadcastsInDim S500000 (![] : Fin 0 → Fin S500000.rank)
  bcast_S8500000_S8500000x1_0 : S8500000.BroadcastsInDim S8500000x1 (![0] : Fin 1 → Fin S8500000x1.rank)
  transposes_S4x128_S128x4_1_0 : S4x128.Transposes [1, 0] S128x4
  bcast_S8500000x1_S8500000x4_0_1 : S8500000x1.BroadcastsInDim S8500000x4 (![0, 1] : Fin 2 → Fin S8500000x4.rank)
  bcast_S_S500000x4 : S_.BroadcastsInDim S500000x4 (![] : Fin 0 → Fin S500000x4.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  transposes_S4x4_S4x4_1_0 : S4x4.Transposes [1, 0] S4x4
  transposes_S2x4_S4x2_1_0 : S2x4.Transposes [1, 0] S4x2
  bcast_S8500000x1_S8500000x2_0_1 : S8500000x1.BroadcastsInDim S8500000x2 (![0, 1] : Fin 2 → Fin S8500000x2.rank)
  bcast_S_S500000x2 : S_.BroadcastsInDim S500000x2 (![] : Fin 0 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  transposes_S10x2_S2x10_1_0 : S10x2.Transposes [1, 0] S2x10
  bcast_S10_S1x10_1 : S10.BroadcastsInDim S1x10 (![1] : Fin 1 → Fin S1x10.rank)
  bcast_S1x10_S500000x10_0_1 : S1x10.BroadcastsInDim S500000x10 (![0, 1] : Fin 2 → Fin S500000x10.rank)
  scatter_S500000_S8500000x1_S8500000_n_0_0_1_wf : ScatterDims.WF S500000 S8500000x1 S8500000 [] [0] [0] 1
  gather_S500000_S8500000x1_S8500000_n_0_n_n_0_1_1_wf : GatherDims.WF S500000 S8500000x1 S8500000 [] [0] [] [0] [] 1 ![1]
  dot_S500000x128_S128x4_S500000x4_1_0_0_1_n_n_wf : DotDims.WF S500000x128 S128x4 S500000x4 [1] [0] [0] [1] [] []
  gather_S500000x4_S8500000x1_S8500000x4_1_0_n_n_0_1_14_wf : GatherDims.WF S500000x4 S8500000x1 S8500000x4 [1] [0] [] [0] [] 1 ![1, 4]
  scatter_S500000x4_S8500000x1_S8500000x4_1_0_0_1_wf : ScatterDims.WF S500000x4 S8500000x1 S8500000x4 [1] [0] [0] 1
  dot_S500000x4_S4x4_S500000x4_1_0_0_1_n_n_wf : DotDims.WF S500000x4 S4x4 S500000x4 [1] [0] [0] [1] [] []
  dot_S500000x4_S4x2_S500000x2_1_0_0_1_n_n_wf : DotDims.WF S500000x4 S4x2 S500000x2 [1] [0] [0] [1] [] []
  gather_S500000x2_S8500000x1_S8500000x2_1_0_n_n_0_1_12_wf : GatherDims.WF S500000x2 S8500000x1 S8500000x2 [1] [0] [] [0] [] 1 ![1, 2]
  scatter_S500000x2_S8500000x1_S8500000x2_1_0_0_1_wf : ScatterDims.WF S500000x2 S8500000x1 S8500000x2 [1] [0] [0] 1
  dot_S500000x2_S2x10_S500000x10_1_0_0_1_n_n_wf : DotDims.WF S500000x2 S2x10 S500000x10 [1] [0] [0] [1] [] []

variable [Facts₀]

def scatter_S500000_S8500000x1_S8500000_n_0_0_1 : ScatterDims S500000 S8500000x1 S8500000 where
  updateWindowDims := []
  insertedWindowDims := [0]
  scatterDimsToOperandDims := [0]
  indexVectorDim := 1
  wf := scatter_S500000_S8500000x1_S8500000_n_0_0_1_wf
def gather_S500000_S8500000x1_S8500000_n_0_n_n_0_1_1 : GatherDims S500000 S8500000x1 S8500000 where
  offsetDims := []
  collapsedSliceDims := [0]
  operandBatchingDims := []
  startIndicesBatchingDims := []
  startIndexMap := [0]
  indexVectorDim := 1
  sliceSizes := ![1]
  wf := gather_S500000_S8500000x1_S8500000_n_0_n_n_0_1_1_wf
def dot_S500000x128_S128x4_S500000x4_1_0_0_1_n_n : DotDims S500000x128 S128x4 S500000x4 where
  lhsContracting := [1]
  rhsContracting := [0]
  lhsNonContracting := [0]
  rhsNonContracting := [1]
  lhsBatch := []
  rhsBatch := []
  wf := dot_S500000x128_S128x4_S500000x4_1_0_0_1_n_n_wf
def gather_S500000x4_S8500000x1_S8500000x4_1_0_n_n_0_1_14 : GatherDims S500000x4 S8500000x1 S8500000x4 where
  offsetDims := [1]
  collapsedSliceDims := [0]
  operandBatchingDims := []
  startIndicesBatchingDims := []
  startIndexMap := [0]
  indexVectorDim := 1
  sliceSizes := ![1, 4]
  wf := gather_S500000x4_S8500000x1_S8500000x4_1_0_n_n_0_1_14_wf
def scatter_S500000x4_S8500000x1_S8500000x4_1_0_0_1 : ScatterDims S500000x4 S8500000x1 S8500000x4 where
  updateWindowDims := [1]
  insertedWindowDims := [0]
  scatterDimsToOperandDims := [0]
  indexVectorDim := 1
  wf := scatter_S500000x4_S8500000x1_S8500000x4_1_0_0_1_wf
def dot_S500000x4_S4x4_S500000x4_1_0_0_1_n_n : DotDims S500000x4 S4x4 S500000x4 where
  lhsContracting := [1]
  rhsContracting := [0]
  lhsNonContracting := [0]
  rhsNonContracting := [1]
  lhsBatch := []
  rhsBatch := []
  wf := dot_S500000x4_S4x4_S500000x4_1_0_0_1_n_n_wf
def dot_S500000x4_S4x2_S500000x2_1_0_0_1_n_n : DotDims S500000x4 S4x2 S500000x2 where
  lhsContracting := [1]
  rhsContracting := [0]
  lhsNonContracting := [0]
  rhsNonContracting := [1]
  lhsBatch := []
  rhsBatch := []
  wf := dot_S500000x4_S4x2_S500000x2_1_0_0_1_n_n_wf
def gather_S500000x2_S8500000x1_S8500000x2_1_0_n_n_0_1_12 : GatherDims S500000x2 S8500000x1 S8500000x2 where
  offsetDims := [1]
  collapsedSliceDims := [0]
  operandBatchingDims := []
  startIndicesBatchingDims := []
  startIndexMap := [0]
  indexVectorDim := 1
  sliceSizes := ![1, 2]
  wf := gather_S500000x2_S8500000x1_S8500000x2_1_0_n_n_0_1_12_wf
def scatter_S500000x2_S8500000x1_S8500000x2_1_0_0_1 : ScatterDims S500000x2 S8500000x1 S8500000x2 where
  updateWindowDims := [1]
  insertedWindowDims := [0]
  scatterDimsToOperandDims := [0]
  indexVectorDim := 1
  wf := scatter_S500000x2_S8500000x1_S8500000x2_1_0_0_1_wf
def dot_S500000x2_S2x10_S500000x10_1_0_0_1_n_n : DotDims S500000x2 S2x10 S500000x10 where
  lhsContracting := [1]
  rhsContracting := [0]
  lhsNonContracting := [0]
  rhsNonContracting := [1]
  lhsBatch := []
  rhsBatch := []
  wf := dot_S500000x2_S2x10_S500000x10_1_0_0_1_n_n_wf

class Facts : Prop extends Facts₀ where

variable [Facts]
-- ==== Proof.NamedRun.lean ====
/-
  The kernel's run with its two result arrays named.

  The program is eight grid launches among stretches of host operations.  The generated frame module folds the
  device's buffer contents through the fifteen segments (`Gen.W0` … `Gen.W15`: the launch memory, then what each
  host stretch computes, then what each launch's write-backs leave) and proves that every execution ends with
  every unscoped buffer at the last fold `Gen.W15`; its frame theorem keeps, of that, only the argument arrays.
  Here the same run is stated with the two result buffers kept as well: the logits array and the last hidden
  layer end at `Gen.W15` read at their buffers.  What those two values are, as functions of the arguments, is the
  business of the other modules.
-/
import proofs.«155125_j15204184228224_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, with the logits array and the
    last hidden layer at the last fold of the buffer contents and the ten argument arrays as launched. -/
theorem run_named : θ_run defs (onTc (τ := τ) (main (F := F))) ⟨m, fun _ => 0, ρ⟩ (fun r => ∀ c : Dev nD,
      r.2.mem ((c.tc : Thread nD τ).loc main_v80) = W15 m ρ c (Proc.devRef .tc main_v80)
      ∧ r.2.mem ((c.tc : Thread nD τ).loc main_v77) = W15 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v80 (by decide)),
       h c _ (mem_uc main_v77 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.Hand

end
-- ==== Proof.Product0.lean ====
/-
  Launch 0's block product, read at an entry.

  Launch 0 multiplies a block of 5000 node rows by the transposed first-layer weight matrix.  At the ideal values the two
  narrowing format changes do nothing and the product into a zero accumulator is the plain sum of products over the
  contracted axis, so entry (p, q) of the stored block is `∑ k, x[p, k] · w[q, k]`.
-/
import proofs.«155125_j15204184228224_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

theorem lhs0_0 (i : S5000x4.Idx) (q : dot_S5000x128_S128x4_S5000x4_1_0_0_1_n_n.contr.Idx) : (dot_S5000x128_S128x4_S5000x4_1_0_0_1_n_n.lhsIdx i q 0).val = (i 0).val := by
  unfold DotDims.lhsIdx
  rw [dif_neg (show ¬(0 : Fin S5000x128.rank) ∈ dot_S5000x128_S128x4_S5000x4_1_0_0_1_n_n.lhsBatch by decide), dif_pos (show (0 : Fin S5000x128.rank) ∈ dot_S5000x128_S128x4_S5000x4_1_0_0_1_n_n.lhsNonContracting by decide)]
  rfl
theorem rhs0_1 (i : S5000x4.Idx) (q : dot_S5000x128_S128x4_S5000x4_1_0_0_1_n_n.contr.Idx) : (dot_S5000x128_S128x4_S5000x4_1_0_0_1_n_n.rhsIdx i q 1).val = (i 1).val := by
  unfold DotDims.rhsIdx
  rw [dif_neg (show ¬(1 : Fin S128x4.rank) ∈ dot_S5000x128_S128x4_S5000x4_1_0_0_1_n_n.rhsBatch by decide), dif_pos (show (1 : Fin S128x4.rank) ∈ dot_S5000x128_S128x4_S5000x4_1_0_0_1_n_n.rhsNonContracting by decide)]
  rfl

/-- A row of the product block: entry (p, q) of launch 0's stored block is the sum over the 128 features of the
    activation block's row p against the weight matrix's row q (the two format changes are the identity at the
    ideal values, the accumulator is the zero splat, and the transposed weight is read back at its own index). -/
theorem pay0_apply (x0 : Vec Ideal S5000x128 .f32) (x1 : Vec Ideal S4x128 .f32) (p : Fin 5000) (q : Fin 4) :
    k0_pay1 (F := Ideal) x0 x1 (ix2 p q) = ∑ k : Fin 128, x0 (ix2 p k) * x1 (ix2 q k) := by
  unfold k0_pay1
  dsimp only
  refine (Ideal.matmul_constant_zero_apply dot_S5000x128_S128x4_S5000x4_1_0_0_1_n_n none _ _ (ix2 p q)).trans ?_
  rw [← Equiv.sum_comp (ValueIdx.contrEquiv1 dot_S5000x128_S128x4_S5000x4_1_0_0_1_n_n 128 rfl rfl).symm]
  refine Finset.sum_congr rfl fun k _ => ?_
  have hk := ValueIdx.contrEquiv1_symm_val dot_S5000x128_S128x4_S5000x4_1_0_0_1_n_n 128 rfl rfl k
  have el : dot_S5000x128_S128x4_S5000x4_1_0_0_1_n_n.lhsIdx (ix2 p q) ((ValueIdx.contrEquiv1 dot_S5000x128_S128x4_S5000x4_1_0_0_1_n_n 128 rfl rfl).symm k) = ix2 p k := funext fun a => Fin.ext (by
    match a with
    | ⟨0, _⟩ => exact lhs0_0 _ _
    | ⟨1, _⟩ => exact (dot_S5000x128_S128x4_S5000x4_1_0_0_1_n_n.lhsIdx_val_of_single rfl (ix2 p q) _).trans hk)
  have er : dot_S5000x128_S128x4_S5000x4_1_0_0_1_n_n.rhsIdx (ix2 p q) ((ValueIdx.contrEquiv1 dot_S5000x128_S128x4_S5000x4_1_0_0_1_n_n 128 rfl rfl).symm k) = ix2 k q := funext fun a => Fin.ext (by
    match a with
    | ⟨0, _⟩ => exact (dot_S5000x128_S128x4_S5000x4_1_0_0_1_n_n.rhsIdx_val_of_single rfl (ix2 p q) _).trans hk
    | ⟨1, _⟩ => exact rhs0_1 _ _)
  rw [el, er]
  refine congrArg₂ (· * ·) ?_ ?_
  · simp only [ValueIdx.truncf_apply]
  · refine (transpose_apply [1, 0] _ transposes_S4x128_p1_0_S128x4 (ix2 k q) (ix2 q k) (fun b => match b with
      | ⟨0, _⟩ => rfl
      | ⟨1, _⟩ => rfl)).trans ?_
    rw [ValueIdx.truncf_apply]

end Cert.KernelIdeal.Hand

end
-- ==== Proof.Whole0.lean ====
/-
  Launch 0 as one whole-array function.

  The launch runs the first layer's feature product over a grid of 100 points; point `t` reads rows `5000 t … 5000 t + 4999` of the
  activations and the whole weight matrix and writes the same rows of the result.  Each block written is the matching
  block of the full product `∑ k, a[i, k] · w[j, k]`, and the blocks cover the result array, so after the launch the
  result array IS that product of the arrays the launch found.
-/
import proofs.«155125_j15204184228224_1_alg».proof.Proof.Gen.KernelIdeal.Frame
import proofs.«155125_j15204184228224_1_alg».proof.Proof.Product0

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The whole product: row i of the activations against row j of the weight matrix, summed over the 128 features. -/
def prod0 (A : S500000x128.Idx → EReal) (Wt : S4x128.Idx → EReal) : S500000x4.Idx → EReal :=
  fun i => ∑ k : Fin 128, A (ix2 (i 0) k) * Wt (ix2 (i 1) k)

/-- The launch's index maps over its 100 grid points: the activation and result windows move down the rows together,
    one block of 5000 rows per point, and the weight window stays on the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the launch finds. -/
theorem flushed0_eq (c : Dev nD) (t : Fin cfg0.N) :
    (dat0 V c).flushed 2 t = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S4x128) hz0]
  obtain ⟨e0, e1, e2, e3, e4, e5⟩ := idx_facts0 t
  funext j
  obtain ⟨p, q, rfl⟩ : ∃ (p : Fin 5000) (q : Fin 4), j = ix2 p q := ⟨j 0, j 1, eq_ix2 j⟩
  refine (pay0_apply _ _ p q).trans ?_
  rw [View.read_apply]
  unfold prod0
  refine Finset.sum_congr rfl fun k _ => ?_
  refine congrArg₂ (· * ·) ?_ ?_
  · unfold iblk0
    rw [View.read_apply]
    show V c main_arg0 _ = V c main_arg0 _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · unfold iblk0
    rw [View.read_apply]
    show V c main_arg2 _ = V c main_arg2 _
    refine congrArg _ (funext fun a => Fin.ext ?_)
    match a with
    | ⟨0, _⟩ => show win0_1.index t (0 : Fin 2) * 4 + 1 * q.val = win0_2.index t (1 : Fin 2) * 4 + 1 * q.val; omega
    | ⟨1, _⟩ => show win0_1.index t (1 : Fin 2) * 128 + 1 * k.val = k.val; omega

/-- An index of the result array is in point `t`'s block iff each coordinate is in the block's range on its axis. -/
theorem mem_blk0 (t : Fin cfg0.N) (i : S500000x4.Idx) :
    i ∈ ((cfg0.win 2).blk t).view.set ↔ ∀ a : Fin 2, win0_2.index t a * S5000x4.size a ≤ (i a).val ∧ (i a).val < win0_2.index t a * S5000x4.size a + S5000x4.size a := by
  show i ∈ ((View.whole main_v30).slice (win0_2.rect t)).set ↔ _
  rw [View.set_slice_whole, Rect.mem_set_unit]
  exact Iff.rfl

/-- After the launch the result array is the whole product: the 100 blocks of 5000 rows cover its 500000 rows. -/
theorem final0 (c : Dev nD) : (dat0 V c).arrAt 2 cfg0.N = prod0 (V c main_arg0) (V c main_arg2) :=
  (dat0 V c).arrAt_eq_of_cover 2 (prod0 (V c main_arg0) (V c main_arg2)) (fun t _ => flushed0_eq V c t) fun i => by
    have hi0 : (i 0).val < 500000 := (i 0).isLt
    have hi1 : (i 1).val < 4 := (i 1).isLt
    have hN : cfg0.N = 100 := N_0
    let t : Fin cfg0.N := ⟨(i 0).val / 5000, by rw [hN]; omega⟩
    obtain ⟨e0, e1, e2, e3, e4, e5⟩ := idx_facts0 t
    refine ⟨t, flush0_2 t, ?_⟩
    rw [mem_blk0]
    intro a
    have ht : t.val = (i 0).val / 5000 := rfl
    match a with
    | ⟨0, _⟩ => show win0_2.index t (0 : Fin 2) * 5000 ≤ (i 0).val ∧ (i 0).val < win0_2.index t (0 : Fin 2) * 5000 + 5000; omega
    | ⟨1, _⟩ => show win0_2.index t (1 : Fin 2) * 4 ≤ (i 1).val ∧ (i 1).val < win0_2.index t (1 : Fin 2) * 4 + 4; omega

end Cert.KernelIdeal.Hand

end
-- ==== Proof.Bias1.lean ====
/-
  Launch 1's bias step, read at an entry.

  Launch 1 adds the layer's bias row to a block of 5000 aggregated node rows and applies the hyperbolic tangent; entry (p, q) of
  the stored block is `tanh (agg[p, q] + b[q])`.
-/
import proofs.«155125_j15204184228224_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

/-- Entry (p, q) of launch 1's stored block: the aggregated block's entry plus the bias's q-th entry, under the hyperbolic tangent
    (the shape casts are of a shape to itself, and the row of biases is repeated down the 5000 rows). -/
theorem pay1_apply (x0 : Vec Ideal S1x4 .f32) (x1 : Vec Ideal S5000x4 .f32) (p : Fin 5000) (q : Fin 4) :
    k1_pay1 (F := Ideal) x0 x1 (ix2 p q) = Ideal.tanh (x1 (ix2 p q) + x0 (ix2 (0 : Fin 1) q)) := by
  unfold k1_pay1
  simp only [shapeCast_self]
  show Ideal.tanh (x1 (ix2 p q) + broadcastTo S5000x4 x0 broadcasts_S1x4_S5000x4 (ix2 p q)) = _
  rw [broadcastTo_apply x0 broadcasts_S1x4_S5000x4 (ix2 p q) (ix2 (0 : Fin 1) q) (fun a => match a with
    | ⟨0, _⟩ => rfl
    | ⟨1, _⟩ => rfl)]

end Cert.KernelIdeal.Hand

end
-- ==== Proof.Whole1.lean ====
/-
  Launch 1 as one whole-array function.

  The launch adds the bias row to the aggregated node rows and applies the hyperbolic tangent, over a grid of 100 points; point `t`
  reads rows `5000 t … 5000 t + 4999` of the aggregate and the one row of biases and writes the same rows of the
  result.  Each block written is the matching block of `tanh (agg[i, j] + b[0, j])`, and the blocks cover the result array.
-/
import proofs.«155125_j15204184228224_1_alg».proof.Proof.Gen.KernelIdeal.Frame
import proofs.«155125_j15204184228224_1_alg».proof.Proof.Bias1

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The whole step: every aggregated entry plus its column's bias, under the hyperbolic tangent. -/
def act1 (A : S500000x4.Idx → EReal) (B : S1x4.Idx → EReal) : S500000x4.Idx → EReal :=
  fun i => Ideal.tanh (A i + B (ix2 (0 : Fin 1) (i 1)))

/-- The launch's index maps over its 100 grid points: the aggregate and result windows move down the rows together,
    one block of 5000 rows per point, and the bias window stays on the one row. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole step on the arrays the launch finds. -/
theorem flushed1_eq (c : Dev nD) (t : Fin cfg1.N) :
    (dat1 V c).flushed 2 t = ((cfg1.win 2).blk t).view.read (Elt Ideal) (act1 (V c main_v43) (V c main_v44)) := by
  show (cfg1.win 2).cut (grid1.coords t) ((dat1 V c).after 2 t) = _
  rw [after1_2]
  unfold out1_2
  rw [View.canon_unit_zero hz1]
  simp only [View.ld_unit_zero (S := S5000x4) hz1, View.ld_unit_zero (S := S1x4) hz1]
  obtain ⟨e0, e1, e2, e3, e4, e5⟩ := idx_facts1 t
  funext j
  obtain ⟨p, q, rfl⟩ : ∃ (p : Fin 5000) (q : Fin 4), j = ix2 p q := ⟨j 0, j 1, eq_ix2 j⟩
  refine (pay1_apply _ _ p q).trans ?_
  rw [View.read_apply]
  unfold act1
  refine congrArg Ideal.tanh (congrArg₂ (· + ·) ?_ ?_)
  · unfold iblk1
    rw [View.read_apply]
    show V c main_v43 _ = V c main_v43 _
    refine congrArg _ (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 4 + 1 * q.val = win1_2.index t (1 : Fin 2) * 4 + 1 * q.val; omega
  · unfold iblk1
    rw [View.read_apply]
    show V c main_v44 _ = V c main_v44 _
    refine congrArg _ (funext fun a => Fin.ext ?_)
    match a with
    | ⟨0, _⟩ => show win1_1.index t (0 : Fin 2) * 1 + 1 * 0 = 0; omega
    | ⟨1, _⟩ => show win1_1.index t (1 : Fin 2) * 4 + 1 * q.val = win1_2.index t (1 : Fin 2) * 4 + 1 * q.val; omega

/-- An index of the result array is in point `t`'s block iff each coordinate is in the block's range on its axis. -/
theorem mem_blk1 (t : Fin cfg1.N) (i : S500000x4.Idx) :
    i ∈ ((cfg1.win 2).blk t).view.set ↔ ∀ a : Fin 2, win1_2.index t a * S5000x4.size a ≤ (i a).val ∧ (i a).val < win1_2.index t a * S5000x4.size a + S5000x4.size a := by
  show i ∈ ((View.whole main_v45).slice (win1_2.rect t)).set ↔ _
  rw [View.set_slice_whole, Rect.mem_set_unit]
  exact Iff.rfl

/-- After the launch the result array is the whole step: the 100 blocks of 5000 rows cover its 500000 rows. -/
theorem final1 (c : Dev nD) : (dat1 V c).arrAt 2 cfg1.N = act1 (V c main_v43) (V c main_v44) :=
  (dat1 V c).arrAt_eq_of_cover 2 (act1 (V c main_v43) (V c main_v44)) (fun t _ => flushed1_eq V c t) fun i => by
    have hi0 : (i 0).val < 500000 := (i 0).isLt
    have hi1 : (i 1).val < 4 := (i 1).isLt
    have hN : cfg1.N = 100 := N_1
    let t : Fin cfg1.N := ⟨(i 0).val / 5000, by rw [hN]; omega⟩
    obtain ⟨e0, e1, e2, e3, e4, e5⟩ := idx_facts1 t
    refine ⟨t, flush1_2 t, ?_⟩
    rw [mem_blk1]
    intro a
    have ht : t.val = (i 0).val / 5000 := rfl
    match a with
    | ⟨0, _⟩ => show win1_2.index t (0 : Fin 2) * 5000 ≤ (i 0).val ∧ (i 0).val < win1_2.index t (0 : Fin 2) * 5000 + 5000; omega
    | ⟨1, _⟩ => show win1_2.index t (1 : Fin 2) * 4 ≤ (i 1).val ∧ (i 1).val < win1_2.index t (1 : Fin 2) * 4 + 4; omega

end Cert.KernelIdeal.Hand

end
-- ==== Proof.Product2.lean ====
/-
  Launch 2's block product, read at an entry.

  Launch 2 multiplies a block of 5000 node rows by the transposed second-layer weight matrix.  At the ideal values the two
  narrowing format changes do nothing and the product into a zero accumulator is the plain sum of products over the
  contracted axis, so entry (p, q) of the stored block is `∑ k, x[p, k] · w[q, k]`.
-/
import proofs.«155125_j15204184228224_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

theorem lhs2_0 (i : S5000x4.Idx) (q : dot_S5000x4_S4x4_S5000x4_1_0_0_1_n_n.contr.Idx) : (dot_S5000x4_S4x4_S5000x4_1_0_0_1_n_n.lhsIdx i q 0).val = (i 0).val := by
  unfold DotDims.lhsIdx
  rw [dif_neg (show ¬(0 : Fin S5000x4.rank) ∈ dot_S5000x4_S4x4_S5000x4_1_0_0_1_n_n.lhsBatch by decide), dif_pos (show (0 : Fin S5000x4.rank) ∈ dot_S5000x4_S4x4_S5000x4_1_0_0_1_n_n.lhsNonContracting by decide)]
  rfl
theorem rhs2_1 (i : S5000x4.Idx) (q : dot_S5000x4_S4x4_S5000x4_1_0_0_1_n_n.contr.Idx) : (dot_S5000x4_S4x4_S5000x4_1_0_0_1_n_n.rhsIdx i q 1).val = (i 1).val := by
  unfold DotDims.rhsIdx
  rw [dif_neg (show ¬(1 : Fin S4x4.rank) ∈ dot_S5000x4_S4x4_S5000x4_1_0_0_1_n_n.rhsBatch by decide), dif_pos (show (1 : Fin S4x4.rank) ∈ dot_S5000x4_S4x4_S5000x4_1_0_0_1_n_n.rhsNonContracting by decide)]
  rfl

/-- A row of the product block: entry (p, q) of launch 2's stored block is the sum over the 4 features of the
    activation block's row p against the weight matrix's row q (the two format changes are the identity at the
    ideal values, the accumulator is the zero splat, and the transposed weight is read back at its own index). -/
theorem pay2_apply (x0 : Vec Ideal S5000x4 .f32) (x1 : Vec Ideal S4x4 .f32) (p : Fin 5000) (q : Fin 4) :
    k2_pay1 (F := Ideal) x0 x1 (ix2 p q) = ∑ k : Fin 4, x0 (ix2 p k) * x1 (ix2 q k) := by
  unfold k2_pay1
  dsimp only
  refine (Ideal.matmul_constant_zero_apply dot_S5000x4_S4x4_S5000x4_1_0_0_1_n_n none _ _ (ix2 p q)).trans ?_
  rw [← Equiv.sum_comp (ValueIdx.contrEquiv1 dot_S5000x4_S4x4_S5000x4_1_0_0_1_n_n 4 rfl rfl).symm]
  refine Finset.sum_congr rfl fun k _ => ?_
  have hk := ValueIdx.contrEquiv1_symm_val dot_S5000x4_S4x4_S5000x4_1_0_0_1_n_n 4 rfl rfl k
  have el : dot_S5000x4_S4x4_S5000x4_1_0_0_1_n_n.lhsIdx (ix2 p q) ((ValueIdx.contrEquiv1 dot_S5000x4_S4x4_S5000x4_1_0_0_1_n_n 4 rfl rfl).symm k) = ix2 p k := funext fun a => Fin.ext (by
    match a with
    | ⟨0, _⟩ => exact lhs2_0 _ _
    | ⟨1, _⟩ => exact (dot_S5000x4_S4x4_S5000x4_1_0_0_1_n_n.lhsIdx_val_of_single rfl (ix2 p q) _).trans hk)
  have er : dot_S5000x4_S4x4_S5000x4_1_0_0_1_n_n.rhsIdx (ix2 p q) ((ValueIdx.contrEquiv1 dot_S5000x4_S4x4_S5000x4_1_0_0_1_n_n 4 rfl rfl).symm k) = ix2 k q := funext fun a => Fin.ext (by
    match a with
    | ⟨0, _⟩ => exact (dot_S5000x4_S4x4_S5000x4_1_0_0_1_n_n.rhsIdx_val_of_single rfl (ix2 p q) _).trans hk
    | ⟨1, _⟩ => exact rhs2_1 _ _)
  rw [el, er]
  refine congrArg₂ (· * ·) ?_ ?_
  · simp only [shapeCast_self, ValueIdx.truncf_apply]
  · refine (transpose_apply [1, 0] _ transposes_S4x4_p1_0_S4x4 (ix2 k q) (ix2 q k) (fun b => match b with
      | ⟨0, _⟩ => rfl
      | ⟨1, _⟩ => rfl)).trans ?_
    rw [ValueIdx.truncf_apply]

end Cert.KernelIdeal.Hand

end
-- ==== Proof.Whole2.lean ====
/-
  Launch 2 as one whole-array function.

  The launch runs the second layer's feature product over a grid of 100 points; point `t` reads rows `5000 t … 5000 t + 4999` of the
  activations and the whole weight matrix and writes the same rows of the result.  Each block written is the matching
  block of the full product `∑ k, a[i, k] · w[j, k]`, and the blocks cover the result array, so after the launch the
  result array IS that product of the arrays the launch found.
-/
import proofs.«155125_j15204184228224_1_alg».proof.Proof.Gen.KernelIdeal.Frame
import proofs.«155125_j15204184228224_1_alg».proof.Proof.Product2

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The whole product: row i of the activations against row j of the weight matrix, summed over the 4 features. -/
def prod2 (A : S500000x4.Idx → EReal) (Wt : S4x4.Idx → EReal) : S500000x4.Idx → EReal :=
  fun i => ∑ k : Fin 4, A (ix2 (i 0) k) * Wt (ix2 (i 1) k)

/-- The launch's index maps over its 100 grid points: the activation and result windows move down the rows together,
    one block of 5000 rows per point, and the weight window stays on the whole matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the arrays the launch finds. -/
theorem flushed2_eq (c : Dev nD) (t : Fin cfg2.N) :
    (dat2 V c).flushed 2 t = ((cfg2.win 2).blk t).view.read (Elt Ideal) (prod2 (V c main_v45) (V c main_arg4)) := by
  show (cfg2.win 2).cut (grid2.coords t) ((dat2 V c).after 2 t) = _
  rw [after2_2]
  unfold out2_2
  rw [View.canon_unit_zero hz2]
  simp only [View.ld_unit_zero (S := S5000x4) hz2, View.ld_unit_zero (S := S4x4) hz2]
  obtain ⟨e0, e1, e2, e3, e4, e5⟩ := idx_facts2 t
  funext j
  obtain ⟨p, q, rfl⟩ : ∃ (p : Fin 5000) (q : Fin 4), j = ix2 p q := ⟨j 0, j 1, eq_ix2 j⟩
  refine (pay2_apply _ _ p q).trans ?_
  rw [View.read_apply]
  unfold prod2
  refine Finset.sum_congr rfl fun k _ => ?_
  refine congrArg₂ (· * ·) ?_ ?_
  · unfold iblk2
    rw [View.read_apply]
    show V c main_v45 _ = V c main_v45 _
    refine congrArg _ (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 4 + 1 * k.val = k.val; omega
  · unfold iblk2
    rw [View.read_apply]
    show V c main_arg4 _ = V c main_arg4 _
    refine congrArg _ (funext fun a => Fin.ext ?_)
    match a with
    | ⟨0, _⟩ => show win2_1.index t (0 : Fin 2) * 4 + 1 * q.val = win2_2.index t (1 : Fin 2) * 4 + 1 * q.val; omega
    | ⟨1, _⟩ => show win2_1.index t (1 : Fin 2) * 4 + 1 * k.val = k.val; omega

/-- An index of the result array is in point `t`'s block iff each coordinate is in the block's range on its axis. -/
theorem mem_blk2 (t : Fin cfg2.N) (i : S500000x4.Idx) :
    i ∈ ((cfg2.win 2).blk t).view.set ↔ ∀ a : Fin 2, win2_2.index t a * S5000x4.size a ≤ (i a).val ∧ (i a).val < win2_2.index t a * S5000x4.size a + S5000x4.size a := by
  show i ∈ ((View.whole main_v46).slice (win2_2.rect t)).set ↔ _
  rw [View.set_slice_whole, Rect.mem_set_unit]
  exact Iff.rfl

/-- After the launch the result array is the whole product: the 100 blocks of 5000 rows cover its 500000 rows. -/
theorem final2 (c : Dev nD) : (dat2 V c).arrAt 2 cfg2.N = prod2 (V c main_v45) (V c main_arg4) :=
  (dat2 V c).arrAt_eq_of_cover 2 (prod2 (V c main_v45) (V c main_arg4)) (fun t _ => flushed2_eq V c t) fun i => by
    have hi0 : (i 0).val < 500000 := (i 0).isLt
    have hi1 : (i 1).val < 4 := (i 1).isLt
    have hN : cfg2.N = 100 := N_2
    let t : Fin cfg2.N := ⟨(i 0).val / 5000, by rw [hN]; omega⟩
    obtain ⟨e0, e1, e2, e3, e4, e5⟩ := idx_facts2 t
    refine ⟨t, flush2_2 t, ?_⟩
    rw [mem_blk2]
    intro a
    have ht : t.val = (i 0).val / 5000 := rfl
    match a with
    | ⟨0, _⟩ => show win2_2.index t (0 : Fin 2) * 5000 ≤ (i 0).val ∧ (i 0).val < win2_2.index t (0 : Fin 2) * 5000 + 5000; omega
    | ⟨1, _⟩ => show win2_2.index t (1 : Fin 2) * 4 ≤ (i 1).val ∧ (i 1).val < win2_2.index t (1 : Fin 2) * 4 + 4; omega

end Cert.KernelIdeal.Hand

end
-- ==== Proof.Bias3.lean ====
/-
  Launch 3's bias step, read at an entry.

  Launch 3 adds the layer's bias row to a block of 5000 aggregated node rows and applies the hyperbolic tangent; entry (p, q) of
  the stored block is `tanh (agg[p, q] + b[q])`.
-/
import proofs.«155125_j15204184228224_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

/-- Entry (p, q) of launch 3's stored block: the aggregated block's entry plus the bias's q-th entry, under the hyperbolic tangent
    (the shape casts are of a shape to itself, and the row of biases is repeated down the 5000 rows). -/
theorem pay3_apply (x0 : Vec Ideal S1x4 .f32) (x1 : Vec Ideal S5000x4 .f32) (p : Fin 5000) (q : Fin 4) :
    k3_pay1 (F := Ideal) x0 x1 (ix2 p q) = Ideal.tanh (x1 (ix2 p q) + x0 (ix2 (0 : Fin 1) q)) := by
  unfold k3_pay1
  simp only [shapeCast_self]
  show Ideal.tanh (x1 (ix2 p q) + broadcastTo S5000x4 x0 broadcasts_S1x4_S5000x4 (ix2 p q)) = _
  rw [broadcastTo_apply x0 broadcasts_S1x4_S5000x4 (ix2 p q) (ix2 (0 : Fin 1) q) (fun a => match a with
    | ⟨0, _⟩ => rfl
    | ⟨1, _⟩ => rfl)]

end Cert.KernelIdeal.Hand

end
-- ==== Proof.Whole3.lean ====
/-
  Launch 3 as one whole-array function.

  The launch adds the bias row to the aggregated node rows and applies the hyperbolic tangent, over a grid of 100 points; point `t`
  reads rows `5000 t … 5000 t + 4999` of the aggregate and the one row of biases and writes the same rows of the
  result.  Each block written is the matching block of `tanh (agg[i, j] + b[0, j])`, and the blocks cover the result array.
-/
import proofs.«155125_j15204184228224_1_alg».proof.Proof.Gen.KernelIdeal.Frame
import proofs.«155125_j15204184228224_1_alg».proof.Proof.Bias3

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The whole step: every aggregated entry plus its column's bias, under the hyperbolic tangent. -/
def act3 (A : S500000x4.Idx → EReal) (B : S1x4.Idx → EReal) : S500000x4.Idx → EReal :=
  fun i => Ideal.tanh (A i + B (ix2 (0 : Fin 1) (i 1)))

/-- The launch's index maps over its 100 grid points: the aggregate and result windows move down the rows together,
    one block of 5000 rows per point, and the bias window stays on the one row. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole step on the arrays the launch finds. -/
theorem flushed3_eq (c : Dev nD) (t : Fin cfg3.N) :
    (dat3 V c).flushed 2 t = ((cfg3.win 2).blk t).view.read (Elt Ideal) (act3 (V c main_v59) (V c main_v60)) := by
  show (cfg3.win 2).cut (grid3.coords t) ((dat3 V c).after 2 t) = _
  rw [after3_2]
  unfold out3_2
  rw [View.canon_unit_zero hz3]
  simp only [View.ld_unit_zero (S := S5000x4) hz3, View.ld_unit_zero (S := S1x4) hz3]
  obtain ⟨e0, e1, e2, e3, e4, e5⟩ := idx_facts3 t
  funext j
  obtain ⟨p, q, rfl⟩ : ∃ (p : Fin 5000) (q : Fin 4), j = ix2 p q := ⟨j 0, j 1, eq_ix2 j⟩
  refine (pay3_apply _ _ p q).trans ?_
  rw [View.read_apply]
  unfold act3
  refine congrArg Ideal.tanh (congrArg₂ (· + ·) ?_ ?_)
  · unfold iblk3
    rw [View.read_apply]
    show V c main_v59 _ = V c main_v59 _
    refine congrArg _ (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 4 + 1 * q.val = win3_2.index t (1 : Fin 2) * 4 + 1 * q.val; omega
  · unfold iblk3
    rw [View.read_apply]
    show V c main_v60 _ = V c main_v60 _
    refine congrArg _ (funext fun a => Fin.ext ?_)
    match a with
    | ⟨0, _⟩ => show win3_1.index t (0 : Fin 2) * 1 + 1 * 0 = 0; omega
    | ⟨1, _⟩ => show win3_1.index t (1 : Fin 2) * 4 + 1 * q.val = win3_2.index t (1 : Fin 2) * 4 + 1 * q.val; omega

/-- An index of the result array is in point `t`'s block iff each coordinate is in the block's range on its axis. -/
theorem mem_blk3 (t : Fin cfg3.N) (i : S500000x4.Idx) :
    i ∈ ((cfg3.win 2).blk t).view.set ↔ ∀ a : Fin 2, win3_2.index t a * S5000x4.size a ≤ (i a).val ∧ (i a).val < win3_2.index t a * S5000x4.size a + S5000x4.size a := by
  show i ∈ ((View.whole main_v61).slice (win3_2.rect t)).set ↔ _
  rw [View.set_slice_whole, Rect.mem_set_unit]
  exact Iff.rfl

/-- After the launch the result array is the whole step: the 100 blocks of 5000 rows cover its 500000 rows. -/
theorem final3 (c : Dev nD) : (dat3 V c).arrAt 2 cfg3.N = act3 (V c main_v59) (V c main_v60) :=
  (dat3 V c).arrAt_eq_of_cover 2 (act3 (V c main_v59) (V c main_v60)) (fun t _ => flushed3_eq V c t) fun i => by
    have hi0 : (i 0).val < 500000 := (i 0).isLt
    have hi1 : (i 1).val < 4 := (i 1).isLt
    have hN : cfg3.N = 100 := N_3
    let t : Fin cfg3.N := ⟨(i 0).val / 5000, by rw [hN]; omega⟩
    obtain ⟨e0, e1, e2, e3, e4, e5⟩ := idx_facts3 t
    refine ⟨t, flush3_2 t, ?_⟩
    rw [mem_blk3]
    intro a
    have ht : t.val = (i 0).val / 5000 := rfl
    match a with
    | ⟨0, _⟩ => show win3_2.index t (0 : Fin 2) * 5000 ≤ (i 0).val ∧ (i 0).val < win3_2.index t (0 : Fin 2) * 5000 + 5000; omega
    | ⟨1, _⟩ => show win3_2.index t (1 : Fin 2) * 4 ≤ (i 1).val ∧ (i 1).val < win3_2.index t (1 : Fin 2) * 4 + 4; omega

end Cert.KernelIdeal.Hand

end
-- ==== Proof.Product4.lean ====
/-
  Launch 4's block product, read at an entry.

  Launch 4 multiplies a block of 5000 node rows by the transposed third-layer weight matrix.  At the ideal values the two
  narrowing format changes do nothing and the product into a zero accumulator is the plain sum of products over the
  contracted axis, so entry (p, q) of the stored block is `∑ k, x[p, k] · w[q, k]`.
-/
import proofs.«155125_j15204184228224_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

theorem lhs4_0 (i : S5000x2.Idx) (q : dot_S5000x4_S4x2_S5000x2_1_0_0_1_n_n.contr.Idx) : (dot_S5000x4_S4x2_S5000x2_1_0_0_1_n_n.lhsIdx i q 0).val = (i 0).val := by
  unfold DotDims.lhsIdx
  rw [dif_neg (show ¬(0 : Fin S5000x4.rank) ∈ dot_S5000x4_S4x2_S5000x2_1_0_0_1_n_n.lhsBatch by decide), dif_pos (show (0 : Fin S5000x4.rank) ∈ dot_S5000x4_S4x2_S5000x2_1_0_0_1_n_n.lhsNonContracting by decide)]
  rfl
theorem rhs4_1 (i : S5000x2.Idx) (q : dot_S5000x4_S4x2_S5000x2_1_0_0_1_n_n.contr.Idx) : (dot_S5000x4_S4x2_S5000x2_1_0_0_1_n_n.rhsIdx i q 1).val = (i 1).val := by
  unfold DotDims.rhsIdx
  rw [dif_neg (show ¬(1 : Fin S4x2.rank) ∈ dot_S5000x4_S4x2_S5000x2_1_0_0_1_n_n.rhsBatch by decide), dif_pos (show (1 : Fin S4x2.rank) ∈ dot_S5000x4_S4x2_S5000x2_1_0_0_1_n_n.rhsNonContracting by decide)]
  rfl

/-- A row of the product block: entry (p, q) of launch 4's stored block is the sum over the 4 features of the
    activation block's row p against the weight matrix's row q (the two format changes are the identity at the
    ideal values, the accumulator is the zero splat, and the transposed weight is read back at its own index). -/
theorem pay4_apply (x0 : Vec Ideal S5000x4 .f32) (x1 : Vec Ideal S2x4 .f32) (p : Fin 5000) (q : Fin 2) :
    k4_pay1 (F := Ideal) x0 x1 (ix2 p q) = ∑ k : Fin 4, x0 (ix2 p k) * x1 (ix2 q k) := by
  unfold k4_pay1
  dsimp only
  refine (Ideal.matmul_constant_zero_apply dot_S5000x4_S4x2_S5000x2_1_0_0_1_n_n none _ _ (ix2 p q)).trans ?_
  rw [← Equiv.sum_comp (ValueIdx.contrEquiv1 dot_S5000x4_S4x2_S5000x2_1_0_0_1_n_n 4 rfl rfl).symm]
  refine Finset.sum_congr rfl fun k _ => ?_
  have hk := ValueIdx.contrEquiv1_symm_val dot_S5000x4_S4x2_S5000x2_1_0_0_1_n_n 4 rfl rfl k
  have el : dot_S5000x4_S4x2_S5000x2_1_0_0_1_n_n.lhsIdx (ix2 p q) ((ValueIdx.contrEquiv1 dot_S5000x4_S4x2_S5000x2_1_0_0_1_n_n 4 rfl rfl).symm k) = ix2 p k := funext fun a => Fin.ext (by
    match a with
    | ⟨0, _⟩ => exact lhs4_0 _ _
    | ⟨1, _⟩ => exact (dot_S5000x4_S4x2_S5000x2_1_0_0_1_n_n.lhsIdx_val_of_single rfl (ix2 p q) _).trans hk)
  have er : dot_S5000x4_S4x2_S5000x2_1_0_0_1_n_n.rhsIdx (ix2 p q) ((ValueIdx.contrEquiv1 dot_S5000x4_S4x2_S5000x2_1_0_0_1_n_n 4 rfl rfl).symm k) = ix2 k q := funext fun a => Fin.ext (by
    match a with
    | ⟨0, _⟩ => exact (dot_S5000x4_S4x2_S5000x2_1_0_0_1_n_n.rhsIdx_val_of_single rfl (ix2 p q) _).trans hk
    | ⟨1, _⟩ => exact rhs4_1 _ _)
  rw [el, er]
  refine congrArg₂ (· * ·) ?_ ?_
  · simp only [shapeCast_self, ValueIdx.truncf_apply]
  · refine (transpose_apply [1, 0] _ transposes_S2x4_p1_0_S4x2 (ix2 k q) (ix2 q k) (fun b => match b with
      | ⟨0, _⟩ => rfl
      | ⟨1, _⟩ => rfl)).trans ?_
    rw [ValueIdx.truncf_apply]

end Cert.KernelIdeal.Hand

end
-- ==== Proof.Whole4.lean ====
/-
  Launch 4 as one whole-array function.

  The launch runs the third layer's feature product over a grid of 100 points; point `t` reads rows `5000 t … 5000 t + 4999` of the
  activations and the whole weight matrix and writes the same rows of the result.  Each block written is the matching
  block of the full product `∑ k, a[i, k] · w[j, k]`, and the blocks cover the result array, so after the launch the
  result array IS that product of the arrays the launch found.
-/
import proofs.«155125_j15204184228224_1_alg».proof.Proof.Gen.KernelIdeal.Frame
import proofs.«155125_j15204184228224_1_alg».proof.Proof.Product4

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The whole product: row i of the activations against row j of the weight matrix, summed over the 4 features. -/
def prod4 (A : S500000x4.Idx → EReal) (Wt : S2x4.Idx → EReal) : S500000x2.Idx → EReal :=
  fun i => ∑ k : Fin 4, A (ix2 (i 0) k) * Wt (ix2 (i 1) k)

/-- The launch's index maps over its 100 grid points: the activation and result windows move down the rows together,
    one block of 5000 rows per point, and the weight window stays on the whole matrix. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole product of the arrays the launch finds. -/
theorem flushed4_eq (c : Dev nD) (t : Fin cfg4.N) :
    (dat4 V c).flushed 2 t = ((cfg4.win 2).blk t).view.read (Elt Ideal) (prod4 (V c main_v61) (V c main_arg6)) := by
  show (cfg4.win 2).cut (grid4.coords t) ((dat4 V c).after 2 t) = _
  rw [after4_2]
  unfold out4_2
  rw [View.canon_unit_zero hz4]
  simp only [View.ld_unit_zero (S := S5000x4) hz4, View.ld_unit_zero (S := S2x4) hz4]
  obtain ⟨e0, e1, e2, e3, e4, e5⟩ := idx_facts4 t
  funext j
  obtain ⟨p, q, rfl⟩ : ∃ (p : Fin 5000) (q : Fin 2), j = ix2 p q := ⟨j 0, j 1, eq_ix2 j⟩
  refine (pay4_apply _ _ p q).trans ?_
  rw [View.read_apply]
  unfold prod4
  refine Finset.sum_congr rfl fun k _ => ?_
  refine congrArg₂ (· * ·) ?_ ?_
  · unfold iblk4
    rw [View.read_apply]
    show V c main_v61 _ = V c main_v61 _
    refine congrArg _ (funext fun a => Fin.ext ?_)
    match a with
    | ⟨0, _⟩ => show win4_0.index t (0 : Fin 2) * 5000 + 1 * p.val = win4_2.index t (0 : Fin 2) * 5000 + 1 * p.val; omega
    | ⟨1, _⟩ => show win4_0.index t (1 : Fin 2) * 4 + 1 * k.val = k.val; omega
  · unfold iblk4
    rw [View.read_apply]
    show V c main_arg6 _ = V c main_arg6 _
    refine congrArg _ (funext fun a => Fin.ext ?_)
    match a with
    | ⟨0, _⟩ => show win4_1.index t (0 : Fin 2) * 2 + 1 * q.val = win4_2.index t (1 : Fin 2) * 2 + 1 * q.val; omega
    | ⟨1, _⟩ => show win4_1.index t (1 : Fin 2) * 4 + 1 * k.val = k.val; omega

/-- An index of the result array is in point `t`'s block iff each coordinate is in the block's range on its axis. -/
theorem mem_blk4 (t : Fin cfg4.N) (i : S500000x2.Idx) :
    i ∈ ((cfg4.win 2).blk t).view.set ↔ ∀ a : Fin 2, win4_2.index t a * S5000x2.size a ≤ (i a).val ∧ (i a).val < win4_2.index t a * S5000x2.size a + S5000x2.size a := by
  show i ∈ ((View.whole main_v62).slice (win4_2.rect t)).set ↔ _
  rw [View.set_slice_whole, Rect.mem_set_unit]
  exact Iff.rfl

/-- After the launch the result array is the whole product: the 100 blocks of 5000 rows cover its 500000 rows. -/
theorem final4 (c : Dev nD) : (dat4 V c).arrAt 2 cfg4.N = prod4 (V c main_v61) (V c main_arg6) :=
  (dat4 V c).arrAt_eq_of_cover 2 (prod4 (V c main_v61) (V c main_arg6)) (fun t _ => flushed4_eq V c t) fun i => by
    have hi0 : (i 0).val < 500000 := (i 0).isLt
    have hi1 : (i 1).val < 2 := (i 1).isLt
    have hN : cfg4.N = 100 := N_4
    let t : Fin cfg4.N := ⟨(i 0).val / 5000, by rw [hN]; omega⟩
    obtain ⟨e0, e1, e2, e3, e4, e5⟩ := idx_facts4 t
    refine ⟨t, flush4_2 t, ?_⟩
    rw [mem_blk4]
    intro a
    have ht : t.val = (i 0).val / 5000 := rfl
    match a with
    | ⟨0, _⟩ => show win4_2.index t (0 : Fin 2) * 5000 ≤ (i 0).val ∧ (i 0).val < win4_2.index t (0 : Fin 2) * 5000 + 5000; omega
    | ⟨1, _⟩ => show win4_2.index t (1 : Fin 2) * 2 ≤ (i 1).val ∧ (i 1).val < win4_2.index t (1 : Fin 2) * 2 + 2; omega

end Cert.KernelIdeal.Hand

end
-- ==== Proof.Bias5.lean ====
/-
  Launch 5's bias step, read at an entry.

  Launch 5 adds the layer's bias row to a block of 5000 aggregated node rows and applies the hyperbolic tangent; entry (p, q) of
  the stored block is `tanh (agg[p, q] + b[q])`.
-/
import proofs.«155125_j15204184228224_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

/-- Entry (p, q) of launch 5's stored block: the aggregated block's entry plus the bias's q-th entry, under the hyperbolic tangent
    (the shape casts are of a shape to itself, and the row of biases is repeated down the 5000 rows). -/
theorem pay5_apply (x0 : Vec Ideal S1x2 .f32) (x1 : Vec Ideal S5000x2 .f32) (p : Fin 5000) (q : Fin 2) :
    k5_pay1 (F := Ideal) x0 x1 (ix2 p q) = Ideal.tanh (x1 (ix2 p q) + x0 (ix2 (0 : Fin 1) q)) := by
  unfold k5_pay1
  simp only [shapeCast_self]
  show Ideal.tanh (x1 (ix2 p q) + broadcastTo S5000x2 x0 broadcasts_S1x2_S5000x2 (ix2 p q)) = _
  rw [broadcastTo_apply x0 broadcasts_S1x2_S5000x2 (ix2 p q) (ix2 (0 : Fin 1) q) (fun a => match a with
    | ⟨0, _⟩ => rfl
    | ⟨1, _⟩ => rfl)]

end Cert.KernelIdeal.Hand

end
-- ==== Proof.Whole5.lean ====
/-
  Launch 5 as one whole-array function.

  The launch adds the bias row to the aggregated node rows and applies the hyperbolic tangent, over a grid of 100 points; point `t`
  reads rows `5000 t … 5000 t + 4999` of the aggregate and the one row of biases and writes the same rows of the
  result.  Each block written is the matching block of `tanh (agg[i, j] + b[0, j])`, and the blocks cover the result array.
-/
import proofs.«155125_j15204184228224_1_alg».proof.Proof.Gen.KernelIdeal.Frame
import proofs.«155125_j15204184228224_1_alg».proof.Proof.Bias5

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The whole step: every aggregated entry plus its column's bias, under the hyperbolic tangent. -/
def act5 (A : S500000x2.Idx → EReal) (B : S1x2.Idx → EReal) : S500000x2.Idx → EReal :=
  fun i => Ideal.tanh (A i + B (ix2 (0 : Fin 1) (i 1)))

/-- The launch's index maps over its 100 grid points: the aggregate and result windows move down the rows together,
    one block of 5000 rows per point, and the bias window stays on the one row. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the whole step on the arrays the launch finds. -/
theorem flushed5_eq (c : Dev nD) (t : Fin cfg5.N) :
    (dat5 V c).flushed 2 t = ((cfg5.win 2).blk t).view.read (Elt Ideal) (act5 (V c main_v75) (V c main_v76)) := by
  show (cfg5.win 2).cut (grid5.coords t) ((dat5 V c).after 2 t) = _
  rw [after5_2]
  unfold out5_2
  rw [View.canon_unit_zero hz5]
  simp only [View.ld_unit_zero (S := S5000x2) hz5, View.ld_unit_zero (S := S1x2) hz5]
  obtain ⟨e0, e1, e2, e3, e4, e5⟩ := idx_facts5 t
  funext j
  obtain ⟨p, q, rfl⟩ : ∃ (p : Fin 5000) (q : Fin 2), j = ix2 p q := ⟨j 0, j 1, eq_ix2 j⟩
  refine (pay5_apply _ _ p q).trans ?_
  rw [View.read_apply]
  unfold act5
  refine congrArg Ideal.tanh (congrArg₂ (· + ·) ?_ ?_)
  · unfold iblk5
    rw [View.read_apply]
    show V c main_v75 _ = V c main_v75 _
    refine congrArg _ (funext fun a => Fin.ext ?_)
    match a with
    | ⟨0, _⟩ => show win5_0.index t (0 : Fin 2) * 5000 + 1 * p.val = win5_2.index t (0 : Fin 2) * 5000 + 1 * p.val; omega
    | ⟨1, _⟩ => show win5_0.index t (1 : Fin 2) * 2 + 1 * q.val = win5_2.index t (1 : Fin 2) * 2 + 1 * q.val; omega
  · unfold iblk5
    rw [View.read_apply]
    show V c main_v76 _ = V c main_v76 _
    refine congrArg _ (funext fun a => Fin.ext ?_)
    match a with
    | ⟨0, _⟩ => show win5_1.index t (0 : Fin 2) * 1 + 1 * 0 = 0; omega
    | ⟨1, _⟩ => show win5_1.index t (1 : Fin 2) * 2 + 1 * q.val = win5_2.index t (1 : Fin 2) * 2 + 1 * q.val; omega

/-- An index of the result array is in point `t`'s block iff each coordinate is in the block's range on its axis. -/
theorem mem_blk5 (t : Fin cfg5.N) (i : S500000x2.Idx) :
    i ∈ ((cfg5.win 2).blk t).view.set ↔ ∀ a : Fin 2, win5_2.index t a * S5000x2.size a ≤ (i a).val ∧ (i a).val < win5_2.index t a * S5000x2.size a + S5000x2.size a := by
  show i ∈ ((View.whole main_v77).slice (win5_2.rect t)).set ↔ _
  rw [View.set_slice_whole, Rect.mem_set_unit]
  exact Iff.rfl

/-- After the launch the result array is the whole step: the 100 blocks of 5000 rows cover its 500000 rows. -/
theorem final5 (c : Dev nD) : (dat5 V c).arrAt 2 cfg5.N = act5 (V c main_v75) (V c main_v76) :=
  (dat5 V c).arrAt_eq_of_cover 2 (act5 (V c main_v75) (V c main_v76)) (fun t _ => flushed5_eq V c t) fun i => by
    have hi0 : (i 0).val < 500000 := (i 0).isLt
    have hi1 : (i 1).val < 2 := (i 1).isLt
    have hN : cfg5.N = 100 := N_5
    let t : Fin cfg5.N := ⟨(i 0).val / 5000, by rw [hN]; omega⟩
    obtain ⟨e0, e1, e2, e3, e4, e5⟩ := idx_facts5 t
    refine ⟨t, flush5_2 t, ?_⟩
    rw [mem_blk5]
    intro a
    have ht : t.val = (i 0).val / 5000 := rfl
    match a with
    | ⟨0, _⟩ => show win5_2.index t (0 : Fin 2) * 5000 ≤ (i 0).val ∧ (i 0).val < win5_2.index t (0 : Fin 2) * 5000 + 5000; omega
    | ⟨1, _⟩ => show win5_2.index t (1 : Fin 2) * 2 ≤ (i 1).val ∧ (i 1).val < win5_2.index t (1 : Fin 2) * 2 + 2; omega

end Cert.KernelIdeal.Hand

end
-- ==== Proof.Product6.lean ====
/-
  Launch 6's block product, read at an entry.

  Launch 6 multiplies a block of 5000 node rows by the transposed classifier weight matrix.  At the ideal values the two
  narrowing format changes do nothing and the product into a zero accumulator is the plain sum of products over the
  contracted axis, so entry (p, q) of the stored block is `∑ k, x[p, k] · w[q, k]`.
-/
import proofs.«155125_j15204184228224_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

theorem lhs6_0 (i : S5000x10.Idx) (q : dot_S5000x2_S2x10_S5000x10_1_0_0_1_n_n.contr.Idx) : (dot_S5000x2_S2x10_S5000x10_1_0_0_1_n_n.lhsIdx i q 0).val = (i 0).val := by
  unfold DotDims.lhsIdx
  rw [dif_neg (show ¬(0 : Fin S5000x2.rank) ∈ dot_S5000x2_S2x10_S5000x10_1_0_0_1_n_n.lhsBatch by decide), dif_pos (show (0 : Fin S5000x2.rank) ∈ dot_S5000x2_S2x10_S5000x10_1_0_0_1_n_n.lhsNonContracting by decide)]
  rfl
theorem rhs6_1 (i : S5000x10.Idx) (q : dot_S5000x2_S2x10_S5000x10_1_0_0_1_n_n.contr.Idx) : (dot_S5000x2_S2x10_S5000x10_1_0_0_1_n_n.rhsIdx i q 1).val = (i 1).val := by
  unfold DotDims.rhsIdx
  rw [dif_neg (show ¬(1 : Fin S2x10.rank) ∈ dot_S5000x2_S2x10_S5000x10_1_0_0_1_n_n.rhsBatch by decide), dif_pos (show (1 : Fin S2x10.rank) ∈ dot_S5000x2_S2x10_S5000x10_1_0_0_1_n_n.rhsNonContracting by decide)]
  rfl

/-- A row of the product block: entry (p, q) of launch 6's stored block is the sum over the 2 features of the
    activation block's row p against the weight matrix's row q (the two format changes are the identity at the
    ideal values, the accumulator is the zero splat, and the transposed weight is read back at its own index). -/
theorem pay6_apply (x0 : Vec Ideal S5000x2 .f32) (x1 : Vec Ideal S10x2 .f32) (p : Fin 5000) (q : Fin 10) :
    k6_pay1 (F := Ideal) x0 x1 (ix2 p q) = ∑ k : Fin 2, x0 (ix2 p k) * x1 (ix2 q k) := by
  unfold k6_pay1
  dsimp only
  refine (Ideal.matmul_constant_zero_apply dot_S5000x2_S2x10_S5000x10_1_0_0_1_n_n none _ _ (ix2 p q)).trans ?_
  rw [← Equiv.sum_comp (ValueIdx.contrEquiv1 dot_S5000x2_S2x10_S5000x10_1_0_0_1_n_n 2 rfl rfl).symm]
  refine Finset.sum_congr rfl fun k _ => ?_
  have hk := ValueIdx.contrEquiv1_symm_val dot_S5000x2_S2x10_S5000x10_1_0_0_1_n_n 2 rfl rfl k
  have el : dot_S5000x2_S2x10_S5000x10_1_0_0_1_n_n.lhsIdx (ix2 p q) ((ValueIdx.contrEquiv1 dot_S5000x2_S2x10_S5000x10_1_0_0_1_n_n 2 rfl rfl).symm k) = ix2 p k := funext fun a => Fin.ext (by
    match a with
    | ⟨0, _⟩ => exact lhs6_0 _ _
    | ⟨1, _⟩ => exact (dot_S5000x2_S2x10_S5000x10_1_0_0_1_n_n.lhsIdx_val_of_single rfl (ix2 p q) _).trans hk)
  have er : dot_S5000x2_S2x10_S5000x10_1_0_0_1_n_n.rhsIdx (ix2 p q) ((ValueIdx.contrEquiv1 dot_S5000x2_S2x10_S5000x10_1_0_0_1_n_n 2 rfl rfl).symm k) = ix2 k q := funext fun a => Fin.ext (by
    match a with
    | ⟨0, _⟩ => exact (dot_S5000x2_S2x10_S5000x10_1_0_0_1_n_n.rhsIdx_val_of_single rfl (ix2 p q) _).trans hk
    | ⟨1, _⟩ => exact rhs6_1 _ _)
  rw [el, er]
  refine congrArg₂ (· * ·) ?_ ?_
  · simp only [shapeCast_self, ValueIdx.truncf_apply]
  · refine (transpose_apply [1, 0] _ transposes_S10x2_p1_0_S2x10 (ix2 k q) (ix2 q k) (fun b => match b with
      | ⟨0, _⟩ => rfl
      | ⟨1, _⟩ => rfl)).trans ?_
    rw [ValueIdx.truncf_apply]

end Cert.KernelIdeal.Hand

end
-- ==== Proof.Whole6.lean ====
/-
  Launch 6 as one whole-array function.

  The launch runs the classifier's product over a grid of 100 points; point `t` reads rows `5000 t … 5000 t + 4999` of the
  activations and the whole weight matrix and writes the same rows of the result.  Each block written is the matching
  block of the full product `∑ k, a[i, k] · w[j, k]`, and the blocks cover the result array, so after the launch the
  result array IS that product of the arrays the launch found.
-/
import proofs.«155125_j15204184228224_1_alg».proof.Proof.Gen.KernelIdeal.Frame
import proofs.«155125_j15204184228224_1_alg».proof.Proof.Product6

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- The whole product: row i of the activations against row j of the weight matrix, summed over the 2 features. -/
def prod6 (A : S500000x2.Idx → EReal) (Wt : S10x2.Idx → EReal) : S500000x10.Idx → EReal :=
  fun i => ∑ k : Fin 2, A (ix2 (i 0) k) * Wt (ix2 (i 1) k)

/-- The launch's index maps over its 100 grid points: the activation and result windows move down the rows together,
    one block of 5000 rows per point, and the weight window stays on the whole matrix. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the whole product of the arrays the launch finds. -/
theorem flushed6_eq (c : Dev nD) (t : Fin cfg6.N) :
    (dat6 V c).flushed 2 t = ((cfg6.win 2).blk t).view.read (Elt Ideal) (prod6 (V c main_v77) (V c main_arg8)) := by
  show (cfg6.win 2).cut (grid6.coords t) ((dat6 V c).after 2 t) = _
  rw [after6_2]
  unfold out6_2
  rw [View.canon_unit_zero hz6]
  simp only [View.ld_unit_zero (S := S5000x2) hz6, View.ld_unit_zero (S := S10x2) hz6]
  obtain ⟨e0, e1, e2, e3, e4, e5⟩ := idx_facts6 t
  funext j
  obtain ⟨p, q, rfl⟩ : ∃ (p : Fin 5000) (q : Fin 10), j = ix2 p q := ⟨j 0, j 1, eq_ix2 j⟩
  refine (pay6_apply _ _ p q).trans ?_
  rw [View.read_apply]
  unfold prod6
  refine Finset.sum_congr rfl fun k _ => ?_
  refine congrArg₂ (· * ·) ?_ ?_
  · unfold iblk6
    rw [View.read_apply]
    show V c main_v77 _ = V c main_v77 _
    refine congrArg _ (funext fun a => Fin.ext ?_)
    match a with
    | ⟨0, _⟩ => show win6_0.index t (0 : Fin 2) * 5000 + 1 * p.val = win6_2.index t (0 : Fin 2) * 5000 + 1 * p.val; omega
    | ⟨1, _⟩ => show win6_0.index t (1 : Fin 2) * 2 + 1 * k.val = k.val; omega
  · unfold iblk6
    rw [View.read_apply]
    show V c main_arg8 _ = V c main_arg8 _
    refine congrArg _ (funext fun a => Fin.ext ?_)
    match a with
    | ⟨0, _⟩ => show win6_1.index t (0 : Fin 2) * 10 + 1 * q.val = win6_2.index t (1 : Fin 2) * 10 + 1 * q.val; omega
    | ⟨1, _⟩ => show win6_1.index t (1 : Fin 2) * 2 + 1 * k.val = k.val; omega

/-- An index of the result array is in point `t`'s block iff each coordinate is in the block's range on its axis. -/
theorem mem_blk6 (t : Fin cfg6.N) (i : S500000x10.Idx) :
    i ∈ ((cfg6.win 2).blk t).view.set ↔ ∀ a : Fin 2, win6_2.index t a * S5000x10.size a ≤ (i a).val ∧ (i a).val < win6_2.index t a * S5000x10.size a + S5000x10.size a := by
  show i ∈ ((View.whole main_v78).slice (win6_2.rect t)).set ↔ _
  rw [View.set_slice_whole, Rect.mem_set_unit]
  exact Iff.rfl

/-- After the launch the result array is the whole product: the 100 blocks of 5000 rows cover its 500000 rows. -/
theorem final6 (c : Dev nD) : (dat6 V c).arrAt 2 cfg6.N = prod6 (V c main_v77) (V c main_arg8) :=
  (dat6 V c).arrAt_eq_of_cover 2 (prod6 (V c main_v77) (V c main_arg8)) (fun t _ => flushed6_eq V c t) fun i => by
    have hi0 : (i 0).val < 500000 := (i 0).isLt
    have hi1 : (i 1).val < 10 := (i 1).isLt
    have hN : cfg6.N = 100 := N_6
    let t : Fin cfg6.N := ⟨(i 0).val / 5000, by rw [hN]; omega⟩
    obtain ⟨e0, e1, e2, e3, e4, e5⟩ := idx_facts6 t
    refine ⟨t, flush6_2 t, ?_⟩
    rw [mem_blk6]
    intro a
    have ht : t.val = (i 0).val / 5000 := rfl
    match a with
    | ⟨0, _⟩ => show win6_2.index t (0 : Fin 2) * 5000 ≤ (i 0).val ∧ (i 0).val < win6_2.index t (0 : Fin 2) * 5000 + 5000; omega
    | ⟨1, _⟩ => show win6_2.index t (1 : Fin 2) * 10 ≤ (i 1).val ∧ (i 1).val < win6_2.index t (1 : Fin 2) * 10 + 10; omega

end Cert.KernelIdeal.Hand

end
-- ==== Proof.Bias7.lean ====
/-
  Launch 7's bias step, read at an entry.

  Launch 7 adds the layer's bias row to a block of 5000 aggregated node rows; entry (p, q) of
  the stored block is `agg[p, q] + b[q]`.
-/
import proofs.«155125_j15204184228224_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

/-- Entry (p, q) of launch 7's stored block: the aggregated block's entry plus the bias's q-th entry
    (the shape casts are of a shape to itself, and the row of biases is repeated down the 5000 rows). -/
theorem pay7_apply (x0 : Vec Ideal S1x10 .f32) (x1 : Vec Ideal S5000x10 .f32) (p : Fin 5000) (q : Fin 10) :
    k7_pay1 (F := Ideal) x0 x1 (ix2 p q) = (x1 (ix2 p q) + x0 (ix2 (0 : Fin 1) q)) := by
  unfold k7_pay1
  simp only [shapeCast_self]
  show x1 (ix2 p q) + broadcastTo S5000x10 x0 broadcasts_S1x10_S5000x10 (ix2 p q) = _
  rw [broadcastTo_apply x0 broadcasts_S1x10_S5000x10 (ix2 p q) (ix2 (0 : Fin 1) q) (fun a => match a with
    | ⟨0, _⟩ => rfl
    | ⟨1, _⟩ => rfl)]

end Cert.KernelIdeal.Hand

end
-- ==== Proof.Whole7.lean ====
/-
  Launch 7 as one whole-array function.

  The launch adds the bias row to the aggregated node rows, over a grid of 100 points; point `t`
  reads rows `5000 t … 5000 t + 4999` of the aggregate and the one row of biases and writes the same rows of the
  result.  Each block written is the matching block of `agg[i, j] + b[0, j]`, and the blocks cover the result array.
-/
import proofs.«155125_j15204184228224_1_alg».proof.Proof.Gen.KernelIdeal.Frame
import proofs.«155125_j15204184228224_1_alg».proof.Proof.Bias7

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz7 : (![0, 0] : Fin 2 → Nat) = fun _ => 0 := funext fun a => by fin_cases a <;> rfl

/-- The whole step: every aggregated entry plus its column's bias. -/
def act7 (A : S500000x10.Idx → EReal) (B : S1x10.Idx → EReal) : S500000x10.Idx → EReal :=
  fun i => (A i + B (ix2 (0 : Fin 1) (i 1)))

/-- The launch's index maps over its 100 grid points: the aggregate and result windows move down the rows together,
    one block of 5000 rows per point, and the bias window stays on the one row. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of the whole step on the arrays the launch finds. -/
theorem flushed7_eq (c : Dev nD) (t : Fin cfg7.N) :
    (dat7 V c).flushed 2 t = ((cfg7.win 2).blk t).view.read (Elt Ideal) (act7 (V c main_v78) (V c main_v79)) := by
  show (cfg7.win 2).cut (grid7.coords t) ((dat7 V c).after 2 t) = _
  rw [after7_2]
  unfold out7_2
  rw [View.canon_unit_zero hz7]
  simp only [View.ld_unit_zero (S := S5000x10) hz7, View.ld_unit_zero (S := S1x10) hz7]
  obtain ⟨e0, e1, e2, e3, e4, e5⟩ := idx_facts7 t
  funext j
  obtain ⟨p, q, rfl⟩ : ∃ (p : Fin 5000) (q : Fin 10), j = ix2 p q := ⟨j 0, j 1, eq_ix2 j⟩
  refine (pay7_apply _ _ p q).trans ?_
  rw [View.read_apply]
  unfold act7
  refine congrArg₂ (· + ·) ?_ ?_
  · unfold iblk7
    rw [View.read_apply]
    show V c main_v78 _ = V c main_v78 _
    refine congrArg _ (funext fun a => Fin.ext ?_)
    match a with
    | ⟨0, _⟩ => show win7_0.index t (0 : Fin 2) * 5000 + 1 * p.val = win7_2.index t (0 : Fin 2) * 5000 + 1 * p.val; omega
    | ⟨1, _⟩ => show win7_0.index t (1 : Fin 2) * 10 + 1 * q.val = win7_2.index t (1 : Fin 2) * 10 + 1 * q.val; omega
  · unfold iblk7
    rw [View.read_apply]
    show V c main_v79 _ = V c main_v79 _
    refine congrArg _ (funext fun a => Fin.ext ?_)
    match a with
    | ⟨0, _⟩ => show win7_1.index t (0 : Fin 2) * 1 + 1 * 0 = 0; omega
    | ⟨1, _⟩ => show win7_1.index t (1 : Fin 2) * 10 + 1 * q.val = win7_2.index t (1 : Fin 2) * 10 + 1 * q.val; omega

/-- An index of the result array is in point `t`'s block iff each coordinate is in the block's range on its axis. -/
theorem mem_blk7 (t : Fin cfg7.N) (i : S500000x10.Idx) :
    i ∈ ((cfg7.win 2).blk t).view.set ↔ ∀ a : Fin 2, win7_2.index t a * S5000x10.size a ≤ (i a).val ∧ (i a).val < win7_2.index t a * S5000x10.size a + S5000x10.size a := by
  show i ∈ ((View.whole main_v80).slice (win7_2.rect t)).set ↔ _
  rw [View.set_slice_whole, Rect.mem_set_unit]
  exact Iff.rfl

/-- After the launch the result array is the whole step: the 100 blocks of 5000 rows cover its 500000 rows. -/
theorem final7 (c : Dev nD) : (dat7 V c).arrAt 2 cfg7.N = act7 (V c main_v78) (V c main_v79) :=
  (dat7 V c).arrAt_eq_of_cover 2 (act7 (V c main_v78) (V c main_v79)) (fun t _ => flushed7_eq V c t) fun i => by
    have hi0 : (i 0).val < 500000 := (i 0).isLt
    have hi1 : (i 1).val < 10 := (i 1).isLt
    have hN : cfg7.N = 100 := N_7
    let t : Fin cfg7.N := ⟨(i 0).val / 5000, by rw [hN]; omega⟩
    obtain ⟨e0, e1, e2, e3, e4, e5⟩ := idx_facts7 t
    refine ⟨t, flush7_2 t, ?_⟩
    rw [mem_blk7]
    intro a
    have ht : t.val = (i 0).val / 5000 := rfl
    match a with
    | ⟨0, _⟩ => show win7_2.index t (0 : Fin 2) * 5000 ≤ (i 0).val ∧ (i 0).val < win7_2.index t (0 : Fin 2) * 5000 + 5000; omega
    | ⟨1, _⟩ => show win7_2.index t (1 : Fin 2) * 10 ≤ (i 1).val ∧ (i 1).val < win7_2.index t (1 : Fin 2) * 10 + 10; omega

end Cert.KernelIdeal.Hand

end
-- ==== Proof.Layers.lean ====
/-
  The network, layer by layer, as whole-array functions of the ten arguments.

  The graph's edge list `e` (two rows of 8000000 node numbers) gives, with one self loop per node appended, the source
  and destination vectors `srcV e` and `dstV e` of the 8500000 messages; the degree of a node is the number of
  messages that end at it, `dinvV` is its inverse square root where the degree is positive and zero elsewhere, and
  `normV` gives each message the product of its two ends' `dinvV`.  A convolution step takes a node-feature array
  `H`, gathers the source rows, scales each by the message's norm and adds them up at the destinations
  (`agg4`, `agg2`: four and two feature columns).  Around these the launches contribute the feature products
  (`prod0` … `prod6`) and the bias steps (`act1` … `act7`), each already one function of whole arrays.  The three
  hidden layers and the logits are their compositions.

  Every definition here is spelt with the host operations of the printed program, in the program's own order, so
  that what a stretch of host operations leaves in a buffer is the matching definition by unfolding alone.
-/
import proofs.«155125_j15204184228224_1_alg».proof.Proof.Whole0
import proofs.«155125_j15204184228224_1_alg».proof.Proof.Whole1
import proofs.«155125_j15204184228224_1_alg».proof.Proof.Whole2
import proofs.«155125_j15204184228224_1_alg».proof.Proof.Whole3
import proofs.«155125_j15204184228224_1_alg».proof.Proof.Whole4
import proofs.«155125_j15204184228224_1_alg».proof.Proof.Whole5
import proofs.«155125_j15204184228224_1_alg».proof.Proof.Whole6
import proofs.«155125_j15204184228224_1_alg».proof.Proof.Whole7

set_option maxRecDepth 16384

noncomputable section

namespace Cert.KernelIdeal.Hand

open Cert.KernelIdeal Cert.KernelIdeal.Gen Idealize.ShloMosaic Idealize.ShloMosaic.TcCoe

section Host

variable {F : FTy → Type} [FloatOps F]

/-- The messages' source nodes: the edge list's first row, then every node once (its self loop). -/
def srcV (e : (⟨S2x8000000, .i32⟩ : BufTy).Contents (Elt F)) : (⟨S8500000, .i32⟩ : BufTy).Contents (Elt F) :=
  (((fun a b => concatenate S8500000 0 [⟨S8000000, a⟩, ⟨S500000, b⟩] concatenates_S8000000_S500000_S8500000_d0) : (⟨S8000000, .i32⟩ : BufTy).Contents (Elt F) → (⟨S500000, .i32⟩ : BufTy).Contents (Elt F) → (⟨S8500000, .i32⟩ : BufTy).Contents (Elt F)) (shapeCast _ (((extractStridedSlice S1x8000000 ![0, 0] · slices_S2x8000000_S1x8000000_0_0) : (⟨S2x8000000, .i32⟩ : BufTy).Contents (Elt F) → (⟨S1x8000000, .i32⟩ : BufTy).Contents (Elt F)) e) shapeCasts_S1x8000000_S8000000) (iotaInDim S500000 32 0))

/-- The messages' destination nodes: the edge list's second row, then every node once. -/
def dstV (e : (⟨S2x8000000, .i32⟩ : BufTy).Contents (Elt F)) : (⟨S8500000, .i32⟩ : BufTy).Contents (Elt F) :=
  (((fun a b => concatenate S8500000 0 [⟨S8000000, a⟩, ⟨S500000, b⟩] concatenates_S8000000_S500000_S8500000_d0) : (⟨S8000000, .i32⟩ : BufTy).Contents (Elt F) → (⟨S500000, .i32⟩ : BufTy).Contents (Elt F) → (⟨S8500000, .i32⟩ : BufTy).Contents (Elt F)) (shapeCast _ (((extractStridedSlice S1x8000000 ![1, 0] · slices_S2x8000000_S1x8000000_1_0) : (⟨S2x8000000, .i32⟩ : BufTy).Contents (Elt F) → (⟨S1x8000000, .i32⟩ : BufTy).Contents (Elt F)) e) shapeCasts_S1x8000000_S8000000) (iotaInDim S500000 32 0))

/-- Is a node's degree — ones added up at the messages' destinations — positive. -/
def posV (D : (⟨S8500000, .i32⟩ : BufTy).Contents (Elt F)) : (⟨S500000, .i1⟩ : BufTy).Contents (Elt F) :=
  ((cmpf .ogt : (⟨S500000, .f32⟩ : BufTy).Contents (Elt F) → (⟨S500000, .f32⟩ : BufTy).Contents (Elt F) → (⟨S500000, .i1⟩ : BufTy).Contents (Elt F)) (((fun x i u => Host.scatterAdd scatter_S500000_S8500000x1_S8500000_n_0_0_1 x i u) : (⟨S500000, .f32⟩ : BufTy).Contents (Elt F) → (⟨S8500000x1, .i32⟩ : BufTy).Contents (Elt F) → (⟨S8500000, .f32⟩ : BufTy).Contents (Elt F) → (⟨S500000, .f32⟩ : BufTy).Contents (Elt F)) ((broadcastInDim S500000 ![] bcast_S_S500000 : (⟨S_, .f32⟩ : BufTy).Contents (Elt F) → (⟨S500000, .f32⟩ : BufTy).Contents (Elt F)) (constant S_ .f32 0x00000000#32)) ((broadcastInDim S8500000x1 ![0] bcast_S8500000_S8500000x1_0 : (⟨S8500000, .i32⟩ : BufTy).Contents (Elt F) → (⟨S8500000x1, .i32⟩ : BufTy).Contents (Elt F)) D) ((broadcastInDim S8500000 ![] bcast_S_S8500000 : (⟨S_, .f32⟩ : BufTy).Contents (Elt F) → (⟨S8500000, .f32⟩ : BufTy).Contents (Elt F)) (constant S_ .f32 0x3F800000#32))) ((broadcastInDim S500000 ![] bcast_S_S500000 : (⟨S_, .f32⟩ : BufTy).Contents (Elt F) → (⟨S500000, .f32⟩ : BufTy).Contents (Elt F)) (constant S_ .f32 0x00000000#32)))

/-- The degree's inverse square root. -/
def rsV (D : (⟨S8500000, .i32⟩ : BufTy).Contents (Elt F)) : (⟨S500000, .f32⟩ : BufTy).Contents (Elt F) :=
  ((Host.rsqrt : (⟨S500000, .f32⟩ : BufTy).Contents (Elt F) → (⟨S500000, .f32⟩ : BufTy).Contents (Elt F)) (((fun x i u => Host.scatterAdd scatter_S500000_S8500000x1_S8500000_n_0_0_1 x i u) : (⟨S500000, .f32⟩ : BufTy).Contents (Elt F) → (⟨S8500000x1, .i32⟩ : BufTy).Contents (Elt F) → (⟨S8500000, .f32⟩ : BufTy).Contents (Elt F) → (⟨S500000, .f32⟩ : BufTy).Contents (Elt F)) ((broadcastInDim S500000 ![] bcast_S_S500000 : (⟨S_, .f32⟩ : BufTy).Contents (Elt F) → (⟨S500000, .f32⟩ : BufTy).Contents (Elt F)) (constant S_ .f32 0x00000000#32)) ((broadcastInDim S8500000x1 ![0] bcast_S8500000_S8500000x1_0 : (⟨S8500000, .i32⟩ : BufTy).Contents (Elt F) → (⟨S8500000x1, .i32⟩ : BufTy).Contents (Elt F)) D) ((broadcastInDim S8500000 ![] bcast_S_S8500000 : (⟨S_, .f32⟩ : BufTy).Contents (Elt F) → (⟨S8500000, .f32⟩ : BufTy).Contents (Elt F)) (constant S_ .f32 0x3F800000#32))))

/-- The inverse square root of a node's degree where the degree is positive, zero elsewhere. -/
def dinvV (D : (⟨S8500000, .i32⟩ : BufTy).Contents (Elt F)) : (⟨S500000, .f32⟩ : BufTy).Contents (Elt F) :=
  ((select : (⟨S500000, .i1⟩ : BufTy).Contents (Elt F) → (⟨S500000, .f32⟩ : BufTy).Contents (Elt F) → (⟨S500000, .f32⟩ : BufTy).Contents (Elt F) → (⟨S500000, .f32⟩ : BufTy).Contents (Elt F)) (posV (F := F) D) (rsV (F := F) D) (((broadcastInDim S500000 ![] bcast_S_S500000) : (⟨S_, .f32⟩ : BufTy).Contents (Elt F) → (⟨S500000, .f32⟩ : BufTy).Contents (Elt F)) ((id : (⟨S_, .f32⟩ : BufTy).Contents (Elt F) → (⟨S_, .f32⟩ : BufTy).Contents (Elt F)) (constant S_ .f32 0x00000000#32))))

/-- Each message's weight: the product of `dinvV` at its source and at its destination (a negative node number is
    read from the end, as the program does before each gather). -/
def normV (S D : (⟨S8500000, .i32⟩ : BufTy).Contents (Elt F)) : (⟨S8500000, .f32⟩ : BufTy).Contents (Elt F) :=
  ((mulf : (⟨S8500000, .f32⟩ : BufTy).Contents (Elt F) → (⟨S8500000, .f32⟩ : BufTy).Contents (Elt F) → (⟨S8500000, .f32⟩ : BufTy).Contents (Elt F)) (((fun x i => Host.gather gather_S500000_S8500000x1_S8500000_n_0_n_n_0_1_1 x i) : (⟨S500000, .f32⟩ : BufTy).Contents (Elt F) → (⟨S8500000x1, .i32⟩ : BufTy).Contents (Elt F) → (⟨S8500000, .f32⟩ : BufTy).Contents (Elt F)) (dinvV (F := F) D) ((broadcastInDim S8500000x1 ![0] bcast_S8500000_S8500000x1_0 : (⟨S8500000, .i32⟩ : BufTy).Contents (Elt F) → (⟨S8500000x1, .i32⟩ : BufTy).Contents (Elt F)) ((select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)) ((cmpi .slt : (⟨S8500000, .i32⟩ : BufTy).Contents (Elt F) → (⟨S8500000, .i32⟩ : BufTy).Contents (Elt F) → (⟨S8500000, .i1⟩ : BufTy).Contents (Elt F)) S ((broadcastInDim S8500000 ![] bcast_S_S8500000 : (⟨S_, .i32⟩ : BufTy).Contents (Elt F) → (⟨S8500000, .i32⟩ : BufTy).Contents (Elt F)) (constantI S_ 32 0#32))) ((addi : (⟨S8500000, .i32⟩ : BufTy).Contents (Elt F) → (⟨S8500000, .i32⟩ : BufTy).Contents (Elt F) → (⟨S8500000, .i32⟩ : BufTy).Contents (Elt F)) S ((broadcastInDim S8500000 ![] bcast_S_S8500000 : (⟨S_, .i32⟩ : BufTy).Contents (Elt F) → (⟨S8500000, .i32⟩ : BufTy).Contents (Elt F)) (constantI S_ 32 500000#32))) S))) (((fun x i => Host.gather gather_S500000_S8500000x1_S8500000_n_0_n_n_0_1_1 x i) : (⟨S500000, .f32⟩ : BufTy).Contents (Elt F) → (⟨S8500000x1, .i32⟩ : BufTy).Contents (Elt F) → (⟨S8500000, .f32⟩ : BufTy).Contents (Elt F)) (dinvV (F := F) D) ((broadcastInDim S8500000x1 ![0] bcast_S8500000_S8500000x1_0 : (⟨S8500000, .i32⟩ : BufTy).Contents (Elt F) → (⟨S8500000x1, .i32⟩ : BufTy).Contents (Elt F)) ((select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)) ((cmpi .slt : (⟨S8500000, .i32⟩ : BufTy).Contents (Elt F) → (⟨S8500000, .i32⟩ : BufTy).Contents (Elt F) → (⟨S8500000, .i1⟩ : BufTy).Contents (Elt F)) D ((broadcastInDim S8500000 ![] bcast_S_S8500000 : (⟨S_, .i32⟩ : BufTy).Contents (Elt F) → (⟨S8500000, .i32⟩ : BufTy).Contents (Elt F)) (constantI S_ 32 0#32))) ((addi : (⟨S8500000, .i32⟩ : BufTy).Contents (Elt F) → (⟨S8500000, .i32⟩ : BufTy).Contents (Elt F) → (⟨S8500000, .i32⟩ : BufTy).Contents (Elt F)) D ((broadcastInDim S8500000 ![] bcast_S_S8500000 : (⟨S_, .i32⟩ : BufTy).Contents (Elt F) → (⟨S8500000, .i32⟩ : BufTy).Contents (Elt F)) (constantI S_ 32 500000#32))) D))))

/-- One aggregation over four feature columns: the source rows of `H`, each scaled by its message's weight, added up
    at the destinations. -/
def agg4 (H : (⟨S500000x4, .f32⟩ : BufTy).Contents (Elt F)) (S D : (⟨S8500000, .i32⟩ : BufTy).Contents (Elt F)) (Nn : (⟨S8500000, .f32⟩ : BufTy).Contents (Elt F)) : (⟨S500000x4, .f32⟩ : BufTy).Contents (Elt F) :=
  (((fun x i u => Host.scatterAdd scatter_S500000x4_S8500000x1_S8500000x4_1_0_0_1 x i u) : (⟨S500000x4, .f32⟩ : BufTy).Contents (Elt F) → (⟨S8500000x1, .i32⟩ : BufTy).Contents (Elt F) → (⟨S8500000x4, .f32⟩ : BufTy).Contents (Elt F) → (⟨S500000x4, .f32⟩ : BufTy).Contents (Elt F)) ((broadcastInDim S500000x4 ![] bcast_S_S500000x4 : (⟨S_, .f32⟩ : BufTy).Contents (Elt F) → (⟨S500000x4, .f32⟩ : BufTy).Contents (Elt F)) (constant S_ .f32 0x00000000#32)) ((broadcastInDim S8500000x1 ![0] bcast_S8500000_S8500000x1_0 : (⟨S8500000, .i32⟩ : BufTy).Contents (Elt F) → (⟨S8500000x1, .i32⟩ : BufTy).Contents (Elt F)) D) ((mulf : (⟨S8500000x4, .f32⟩ : BufTy).Contents (Elt F) → (⟨S8500000x4, .f32⟩ : BufTy).Contents (Elt F) → (⟨S8500000x4, .f32⟩ : BufTy).Contents (Elt F)) (((fun x i => Host.gather gather_S500000x4_S8500000x1_S8500000x4_1_0_n_n_0_1_14 x i) : (⟨S500000x4, .f32⟩ : BufTy).Contents (Elt F) → (⟨S8500000x1, .i32⟩ : BufTy).Contents (Elt F) → (⟨S8500000x4, .f32⟩ : BufTy).Contents (Elt F)) H ((broadcastInDim S8500000x1 ![0] bcast_S8500000_S8500000x1_0 : (⟨S8500000, .i32⟩ : BufTy).Contents (Elt F) → (⟨S8500000x1, .i32⟩ : BufTy).Contents (Elt F)) ((select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)) ((cmpi .slt : (⟨S8500000, .i32⟩ : BufTy).Contents (Elt F) → (⟨S8500000, .i32⟩ : BufTy).Contents (Elt F) → (⟨S8500000, .i1⟩ : BufTy).Contents (Elt F)) S ((broadcastInDim S8500000 ![] bcast_S_S8500000 : (⟨S_, .i32⟩ : BufTy).Contents (Elt F) → (⟨S8500000, .i32⟩ : BufTy).Contents (Elt F)) (constantI S_ 32 0#32))) ((addi : (⟨S8500000, .i32⟩ : BufTy).Contents (Elt F) → (⟨S8500000, .i32⟩ : BufTy).Contents (Elt F) → (⟨S8500000, .i32⟩ : BufTy).Contents (Elt F)) S ((broadcastInDim S8500000 ![] bcast_S_S8500000 : (⟨S_, .i32⟩ : BufTy).Contents (Elt F) → (⟨S8500000, .i32⟩ : BufTy).Contents (Elt F)) (constantI S_ 32 500000#32))) S))) ((broadcastInDim S8500000x4 ![0, 1] bcast_S8500000x1_S8500000x4_0_1 : (⟨S8500000x1, .f32⟩ : BufTy).Contents (Elt F) → (⟨S8500000x4, .f32⟩ : BufTy).Contents (Elt F)) ((broadcastInDim S8500000x1 ![0] bcast_S8500000_S8500000x1_0 : (⟨S8500000, .f32⟩ : BufTy).Contents (Elt F) → (⟨S8500000x1, .f32⟩ : BufTy).Contents (Elt F)) Nn))))

/-- The same over two feature columns. -/
def agg2 (H : (⟨S500000x2, .f32⟩ : BufTy).Contents (Elt F)) (S D : (⟨S8500000, .i32⟩ : BufTy).Contents (Elt F)) (Nn : (⟨S8500000, .f32⟩ : BufTy).Contents (Elt F)) : (⟨S500000x2, .f32⟩ : BufTy).Contents (Elt F) :=
  (((fun x i u => Host.scatterAdd scatter_S500000x2_S8500000x1_S8500000x2_1_0_0_1 x i u) : (⟨S500000x2, .f32⟩ : BufTy).Contents (Elt F) → (⟨S8500000x1, .i32⟩ : BufTy).Contents (Elt F) → (⟨S8500000x2, .f32⟩ : BufTy).Contents (Elt F) → (⟨S500000x2, .f32⟩ : BufTy).Contents (Elt F)) ((broadcastInDim S500000x2 ![] bcast_S_S500000x2 : (⟨S_, .f32⟩ : BufTy).Contents (Elt F) → (⟨S500000x2, .f32⟩ : BufTy).Contents (Elt F)) (constant S_ .f32 0x00000000#32)) ((broadcastInDim S8500000x1 ![0] bcast_S8500000_S8500000x1_0 : (⟨S8500000, .i32⟩ : BufTy).Contents (Elt F) → (⟨S8500000x1, .i32⟩ : BufTy).Contents (Elt F)) D) ((mulf : (⟨S8500000x2, .f32⟩ : BufTy).Contents (Elt F) → (⟨S8500000x2, .f32⟩ : BufTy).Contents (Elt F) → (⟨S8500000x2, .f32⟩ : BufTy).Contents (Elt F)) (((fun x i => Host.gather gather_S500000x2_S8500000x1_S8500000x2_1_0_n_n_0_1_12 x i) : (⟨S500000x2, .f32⟩ : BufTy).Contents (Elt F) → (⟨S8500000x1, .i32⟩ : BufTy).Contents (Elt F) → (⟨S8500000x2, .f32⟩ : BufTy).Contents (Elt F)) H ((broadcastInDim S8500000x1 ![0] bcast_S8500000_S8500000x1_0 : (⟨S8500000, .i32⟩ : BufTy).Contents (Elt F) → (⟨S8500000x1, .i32⟩ : BufTy).Contents (Elt F)) ((select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)) ((cmpi .slt : (⟨S8500000, .i32⟩ : BufTy).Contents (Elt F) → (⟨S8500000, .i32⟩ : BufTy).Contents (Elt F) → (⟨S8500000, .i1⟩ : BufTy).Contents (Elt F)) S ((broadcastInDim S8500000 ![] bcast_S_S8500000 : (⟨S_, .i32⟩ : BufTy).Contents (Elt F) → (⟨S8500000, .i32⟩ : BufTy).Contents (Elt F)) (constantI S_ 32 0#32))) ((addi : (⟨S8500000, .i32⟩ : BufTy).Contents (Elt F) → (⟨S8500000, .i32⟩ : BufTy).Contents (Elt F) → (⟨S8500000, .i32⟩ : BufTy).Contents (Elt F)) S ((broadcastInDim S8500000 ![] bcast_S_S8500000 : (⟨S_, .i32⟩ : BufTy).Contents (Elt F) → (⟨S8500000, .i32⟩ : BufTy).Contents (Elt F)) (constantI S_ 32 500000#32))) S))) ((broadcastInDim S8500000x2 ![0, 1] bcast_S8500000x1_S8500000x2_0_1 : (⟨S8500000x1, .f32⟩ : BufTy).Contents (Elt F) → (⟨S8500000x2, .f32⟩ : BufTy).Contents (Elt F)) ((broadcastInDim S8500000x1 ![0] bcast_S8500000_S8500000x1_0 : (⟨S8500000, .f32⟩ : BufTy).Contents (Elt F) → (⟨S8500000x1, .f32⟩ : BufTy).Contents (Elt F)) Nn))))

end Host

variable (x0 : (⟨S500000x128, .f32⟩ : BufTy).Contents (Elt Ideal)) (e : (⟨S2x8000000, .i32⟩ : BufTy).Contents (Elt Ideal)) (x2 : (⟨S4x128, .f32⟩ : BufTy).Contents (Elt Ideal)) (x3 : (⟨S4, .f32⟩ : BufTy).Contents (Elt Ideal))
  (x4 : (⟨S4x4, .f32⟩ : BufTy).Contents (Elt Ideal)) (x5 : (⟨S4, .f32⟩ : BufTy).Contents (Elt Ideal)) (x6 : (⟨S2x4, .f32⟩ : BufTy).Contents (Elt Ideal)) (x7 : (⟨S2, .f32⟩ : BufTy).Contents (Elt Ideal)) (x8 : (⟨S10x2, .f32⟩ : BufTy).Contents (Elt Ideal)) (x9 : (⟨S10, .f32⟩ : BufTy).Contents (Elt Ideal))

/-- The messages' weights of the edge list `e`, at the ideal values. -/
abbrev wts : (⟨S8500000, .f32⟩ : BufTy).Contents (Elt Ideal) := normV (F := Ideal) (srcV (F := Ideal) e) (dstV (F := Ideal) e)

/-- The first hidden layer. -/
def hidden1 : (⟨S500000x4, .f32⟩ : BufTy).Contents (Elt Ideal) :=
  act1 (agg4 (F := Ideal) (prod0 x0 x2) (srcV (F := Ideal) e) (dstV (F := Ideal) e) (wts e)) (shapeCast S1x4 x3 shapeCasts_S4_S1x4)

/-- The second hidden layer. -/
def hidden2 : (⟨S500000x4, .f32⟩ : BufTy).Contents (Elt Ideal) :=
  act3 (agg4 (F := Ideal) (prod2 (hidden1 x0 e x2 x3) x4) (srcV (F := Ideal) e) (dstV (F := Ideal) e) (wts e)) (shapeCast S1x4 x5 shapeCasts_S4_S1x4)

/-- The third hidden layer: the program's second result. -/
def hidden3 : (⟨S500000x2, .f32⟩ : BufTy).Contents (Elt Ideal) :=
  act5 (agg2 (F := Ideal) (prod4 (hidden2 x0 e x2 x3 x4 x5) x6) (srcV (F := Ideal) e) (dstV (F := Ideal) e) (wts e)) (shapeCast S1x2 x7 shapeCasts_S2_S1x2)

/-- The logits: the program's first result. -/
def logits : (⟨S500000x10, .f32⟩ : BufTy).Contents (Elt Ideal) :=
  act7 (prod6 (hidden3 x0 e x2 x3 x4 x5 x6 x7) x8) (shapeCast S1x10 x9 shapeCasts_S10_S1x10)

end Cert.KernelIdeal.Hand

end
-- ==== Proof.Fold.lean ====
/-
  The buffer contents after each segment of the kernel program, read at the buffers that matter.

  The generated frame module folds the device's buffers through the program's fifteen segments (`Gen.W0` … `Gen.W15`).
  Here that fold is read: a stretch of host operations leaves in each buffer it writes the operations' value of what
  was there before and leaves every other buffer alone; a launch leaves in its result array the whole-array function
  of its two operand arrays and leaves every buffer that is not one of its three arrays alone.  Walking the fifteen
  segments in order gives the two results as the network's layers (Layers.lean) of the launch contents of the ten
  arguments.
-/
import proofs.«155125_j15204184228224_1_alg».proof.Proof.Layers

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What each stretch of host operations writes, and what it therefore keeps -/

/-- One operation's written buffer is in the stretch's list. -/
local macro "wr_one" : tactic => `(tactic| (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)))

/-- The buffers `hostOps0` writes. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt Ideal))).Forall fun op => op.writes ⊆ (hostOps0_W.map (Proc.devRef (τ := τ) .tc)).toFinset := by
  simp only [List.Forall]; exact ⟨by wr_one, by wr_one, by wr_one, by wr_one, by wr_one, by wr_one, by wr_one, by wr_one, by wr_one, by wr_one, by wr_one, by wr_one, by wr_one, by wr_one, by wr_one, by wr_one, by wr_one, by wr_one⟩
/-- A buffer `hostOps0` does not write holds after it what it held before. -/
theorem keep1 (r : Ref sig .tc) (h : r ∉ hostOps0_W) : W1 m ρ c (Proc.devRef .tc r) = W0 m ρ c (Proc.devRef .tc r) :=
  StableHlo.after_of_writes_sub hostOps0 _ hostOps0_writes h

/-- The buffers `hostOps0_1` writes. -/
abbrev hostOps0_1_W : List (Ref sig .tc) := [main_call0_v0, main_call0_v1, main_v14]
theorem hostOps0_1_writes : (hostOps0_1 : List (HloOp τ sig (Elt Ideal))).Forall fun op => op.writes ⊆ (hostOps0_1_W.map (Proc.devRef (τ := τ) .tc)).toFinset := by
  simp only [List.Forall]; exact ⟨by wr_one, by wr_one, by wr_one⟩
/-- A buffer `hostOps0_1` does not write holds after it what it held before. -/
theorem keep2 (r : Ref sig .tc) (h : r ∉ hostOps0_1_W) : W2 m ρ c (Proc.devRef .tc r) = W1 m ρ c (Proc.devRef .tc r) :=
  StableHlo.after_of_writes_sub hostOps0_1 _ hostOps0_1_writes h

/-- The buffers `hostOps0_2` writes. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt Ideal))).Forall fun op => op.writes ⊆ (hostOps0_2_W.map (Proc.devRef (τ := τ) .tc)).toFinset := by
  simp only [List.Forall]; exact ⟨by wr_one, by wr_one, by wr_one, by wr_one, by wr_one, by wr_one, by wr_one, by wr_one, by wr_one, by wr_one, by wr_one, by wr_one, by wr_one, by wr_one, by wr_one, by wr_one, by wr_one, by wr_one, by wr_one⟩
/-- A buffer `hostOps0_2` does not write holds after it what it held before. -/
theorem keep3 (r : Ref sig .tc) (h : r ∉ hostOps0_2_W) : W3 m ρ c (Proc.devRef .tc r) = W2 m ρ c (Proc.devRef .tc r) :=
  StableHlo.after_of_writes_sub hostOps0_2 _ hostOps0_2_writes h

/-- The buffers `hostOps1` writes. -/
abbrev hostOps1_W : List (Ref sig .tc) := [main_c_6, main_v31, main_v32, main_c_7, main_v33, main_v34, main_v35, main_v36, main_v37, main_v38, main_v39, main_v40, main_cst_8, main_v41, main_v42, main_v43, main_v44]
theorem hostOps1_writes : (hostOps1 : List (HloOp τ sig (Elt Ideal))).Forall fun op => op.writes ⊆ (hostOps1_W.map (Proc.devRef (τ := τ) .tc)).toFinset := by
  simp only [List.Forall]; exact ⟨by wr_one, by wr_one, by wr_one, by wr_one, by wr_one, by wr_one, by wr_one, by wr_one, by wr_one, by wr_one, by wr_one, by wr_one, by wr_one, by wr_one, by wr_one, by wr_one, by wr_one⟩
/-- A buffer `hostOps1` does not write holds after it what it held before. -/
theorem keep5 (r : Ref sig .tc) (h : r ∉ hostOps1_W) : W5 m ρ c (Proc.devRef .tc r) = W4 m ρ c (Proc.devRef .tc r) :=
  StableHlo.after_of_writes_sub hostOps1 _ hostOps1_writes h

/-- The buffers `hostOps3` writes. -/
abbrev hostOps3_W : List (Ref sig .tc) := [main_c_9, main_v47, main_v48, main_c_10, main_v49, main_v50, main_v51, main_v52, main_v53, main_v54, main_v55, main_v56, main_cst_11, main_v57, main_v58, main_v59, main_v60]
theorem hostOps3_writes : (hostOps3 : List (HloOp τ sig (Elt Ideal))).Forall fun op => op.writes ⊆ (hostOps3_W.map (Proc.devRef (τ := τ) .tc)).toFinset := by
  simp only [List.Forall]; exact ⟨by wr_one, by wr_one, by wr_one, by wr_one, by wr_one, by wr_one, by wr_one, by wr_one, by wr_one, by wr_one, by wr_one, by wr_one, by wr_one, by wr_one, by wr_one, by wr_one, by wr_one⟩
/-- A buffer `hostOps3` does not write holds after it what it held before. -/
theorem keep8 (r : Ref sig .tc) (h : r ∉ hostOps3_W) : W8 m ρ c (Proc.devRef .tc r) = W7 m ρ c (Proc.devRef .tc r) :=
  StableHlo.after_of_writes_sub hostOps3 _ hostOps3_writes h

/-- The buffers `hostOps5` writes. -/
abbrev hostOps5_W : List (Ref sig .tc) := [main_c_12, main_v63, main_v64, main_c_13, main_v65, main_v66, main_v67, main_v68, main_v69, main_v70, main_v71, main_v72, main_cst_14, main_v73, main_v74, main_v75, main_v76]
theorem hostOps5_writes : (hostOps5 : List (HloOp τ sig (Elt Ideal))).Forall fun op => op.writes ⊆ (hostOps5_W.map (Proc.devRef (τ := τ) .tc)).toFinset := by
  simp only [List.Forall]; exact ⟨by wr_one, by wr_one, by wr_one, by wr_one, by wr_one, by wr_one, by wr_one, by wr_one, by wr_one, by wr_one, by wr_one, by wr_one, by wr_one, by wr_one, by wr_one, by wr_one, by wr_one⟩
/-- A buffer `hostOps5` does not write holds after it what it held before. -/
theorem keep11 (r : Ref sig .tc) (h : r ∉ hostOps5_W) : W11 m ρ c (Proc.devRef .tc r) = W10 m ρ c (Proc.devRef .tc r) :=
  StableHlo.after_of_writes_sub hostOps5 _ hostOps5_writes h

/-- The buffers `hostOps7` writes. -/
abbrev hostOps7_W : List (Ref sig .tc) := [main_v79]
theorem hostOps7_writes : (hostOps7 : List (HloOp τ sig (Elt Ideal))).Forall fun op => op.writes ⊆ (hostOps7_W.map (Proc.devRef (τ := τ) .tc)).toFinset := by
  simp only [List.Forall]; exact (by wr_one)
/-- A buffer `hostOps7` does not write holds after it what it held before. -/
theorem keep14 (r : Ref sig .tc) (h : r ∉ hostOps7_W) : W14 m ρ c (Proc.devRef .tc r) = W13 m ρ c (Proc.devRef .tc r) :=
  StableHlo.after_of_writes_sub hostOps7 _ hostOps7_writes h

/-! ## The arguments, at the segments that read them -/

theorem W3_arg0 : W3 m ρ c (Proc.devRef .tc main_arg0) = (m ((c : Thread nD τ).loc main_arg0)) :=
  ((keep3 m ρ c main_arg0 (by decide)).trans ((keep2 m ρ c main_arg0 (by decide)).trans (keep1 m ρ c main_arg0 (by decide)))).trans rfl
theorem W3_arg2 : W3 m ρ c (Proc.devRef .tc main_arg2) = (m ((c : Thread nD τ).loc main_arg2)) :=
  ((keep3 m ρ c main_arg2 (by decide)).trans ((keep2 m ρ c main_arg2 (by decide)).trans (keep1 m ρ c main_arg2 (by decide)))).trans rfl
theorem W4_arg3 : W4 m ρ c (Proc.devRef .tc main_arg3) = (m ((c : Thread nD τ).loc main_arg3)) :=
  ((W4_of_ne m ρ c main_arg3 (by decide)).trans ((keep3 m ρ c main_arg3 (by decide)).trans ((keep2 m ρ c main_arg3 (by decide)).trans (keep1 m ρ c main_arg3 (by decide))))).trans rfl
theorem W6_arg4 : W6 m ρ c (Proc.devRef .tc main_arg4) = (m ((c : Thread nD τ).loc main_arg4)) :=
  ((W6_of_ne m ρ c main_arg4 (by decide)).trans ((keep5 m ρ c main_arg4 (by decide)).trans ((W4_of_ne m ρ c main_arg4 (by decide)).trans ((keep3 m ρ c main_arg4 (by decide)).trans ((keep2 m ρ c main_arg4 (by decide)).trans (keep1 m ρ c main_arg4 (by decide))))))).trans rfl
theorem W7_arg5 : W7 m ρ c (Proc.devRef .tc main_arg5) = (m ((c : Thread nD τ).loc main_arg5)) :=
  ((W7_of_ne m ρ c main_arg5 (by decide)).trans ((W6_of_ne m ρ c main_arg5 (by decide)).trans ((keep5 m ρ c main_arg5 (by decide)).trans ((W4_of_ne m ρ c main_arg5 (by decide)).trans ((keep3 m ρ c main_arg5 (by decide)).trans ((keep2 m ρ c main_arg5 (by decide)).trans (keep1 m ρ c main_arg5 (by decide)))))))).trans rfl
theorem W9_arg6 : W9 m ρ c (Proc.devRef .tc main_arg6) = (m ((c : Thread nD τ).loc main_arg6)) :=
  ((W9_of_ne m ρ c main_arg6 (by decide)).trans ((keep8 m ρ c main_arg6 (by decide)).trans ((W7_of_ne m ρ c main_arg6 (by decide)).trans ((W6_of_ne m ρ c main_arg6 (by decide)).trans ((keep5 m ρ c main_arg6 (by decide)).trans ((W4_of_ne m ρ c main_arg6 (by decide)).trans ((keep3 m ρ c main_arg6 (by decide)).trans ((keep2 m ρ c main_arg6 (by decide)).trans (keep1 m ρ c main_arg6 (by decide)))))))))).trans rfl
theorem W10_arg7 : W10 m ρ c (Proc.devRef .tc main_arg7) = (m ((c : Thread nD τ).loc main_arg7)) :=
  ((W10_of_ne m ρ c main_arg7 (by decide)).trans ((W9_of_ne m ρ c main_arg7 (by decide)).trans ((keep8 m ρ c main_arg7 (by decide)).trans ((W7_of_ne m ρ c main_arg7 (by decide)).trans ((W6_of_ne m ρ c main_arg7 (by decide)).trans ((keep5 m ρ c main_arg7 (by decide)).trans ((W4_of_ne m ρ c main_arg7 (by decide)).trans ((keep3 m ρ c main_arg7 (by decide)).trans ((keep2 m ρ c main_arg7 (by decide)).trans (keep1 m ρ c main_arg7 (by decide))))))))))).trans rfl
theorem W12_arg8 : W12 m ρ c (Proc.devRef .tc main_arg8) = (m ((c : Thread nD τ).loc main_arg8)) :=
  ((W12_of_ne m ρ c main_arg8 (by decide)).trans ((keep11 m ρ c main_arg8 (by decide)).trans ((W10_of_ne m ρ c main_arg8 (by decide)).trans ((W9_of_ne m ρ c main_arg8 (by decide)).trans ((keep8 m ρ c main_arg8 (by decide)).trans ((W7_of_ne m ρ c main_arg8 (by decide)).trans ((W6_of_ne m ρ c main_arg8 (by decide)).trans ((keep5 m ρ c main_arg8 (by decide)).trans ((W4_of_ne m ρ c main_arg8 (by decide)).trans ((keep3 m ρ c main_arg8 (by decide)).trans ((keep2 m ρ c main_arg8 (by decide)).trans (keep1 m ρ c main_arg8 (by decide))))))))))))).trans rfl
theorem W13_arg9 : W13 m ρ c (Proc.devRef .tc main_arg9) = (m ((c : Thread nD τ).loc main_arg9)) :=
  ((W13_of_ne m ρ c main_arg9 (by decide)).trans ((W12_of_ne m ρ c main_arg9 (by decide)).trans ((keep11 m ρ c main_arg9 (by decide)).trans ((W10_of_ne m ρ c main_arg9 (by decide)).trans ((W9_of_ne m ρ c main_arg9 (by decide)).trans ((keep8 m ρ c main_arg9 (by decide)).trans ((W7_of_ne m ρ c main_arg9 (by decide)).trans ((W6_of_ne m ρ c main_arg9 (by decide)).trans ((keep5 m ρ c main_arg9 (by decide)).trans ((W4_of_ne m ρ c main_arg9 (by decide)).trans ((keep3 m ρ c main_arg9 (by decide)).trans ((keep2 m ρ c main_arg9 (by decide)).trans (keep1 m ρ c main_arg9 (by decide)))))))))))))).trans rfl

/-! ## Segments 0 to 2: the edge vectors and the messages' weights -/

/-- The messages' sources. -/
theorem W1_v3 : W1 m ρ c (Proc.devRef .tc main_v3) = (srcV (F := Ideal) (m ((c : Thread nD τ).loc main_arg1))) := by
  show StableHlo.after hostOps0 (W0 m ρ c) (Proc.devRef .tc main_v3) = _
  after_results <;> rfl

/-- The messages' destinations. -/
theorem W1_v6 : W1 m ρ c (Proc.devRef .tc main_v6) = (dstV (F := Ideal) (m ((c : Thread nD τ).loc main_arg1))) := by
  show StableHlo.after hostOps0 (W0 m ρ c) (Proc.devRef .tc main_v6) = _
  after_results <;> rfl

/-- Which degrees are positive. -/
theorem W1_v12 : W1 m ρ c (Proc.devRef .tc main_v12) = (posV (F := Ideal) (dstV (F := Ideal) (m ((c : Thread nD τ).loc main_arg1)))) := by
  show StableHlo.after hostOps0 (W0 m ρ c) (Proc.devRef .tc main_v12) = _
  after_results <;> rfl

/-- The degrees' inverse square roots. -/
theorem W1_v13 : W1 m ρ c (Proc.devRef .tc main_v13) = (rsV (F := Ideal) (dstV (F := Ideal) (m ((c : Thread nD τ).loc main_arg1)))) := by
  show StableHlo.after hostOps0 (W0 m ρ c) (Proc.devRef .tc main_v13) = _
  after_results <;> rfl

/-- The zero that stands in where a degree is not positive. -/
theorem W1_cst_2 : W1 m ρ c (Proc.devRef .tc main_cst_2) = (constant (F := Ideal) S_ .f32 0x00000000#32) := by
  show StableHlo.after hostOps0 (W0 m ρ c) (Proc.devRef .tc main_cst_2) = _
  after_results <;> rfl

/- The typed references of the one outlined call are literal buffers of the stated types, so moving a value between
    the buffer's type and the stated type does nothing. -/
theorem toBuf_v14 (v : (⟨S500000, .f32⟩ : BufTy).Contents (Elt Ideal)) : (StableHlo.TRef.of main_v14 : StableHlo.TRef sig ⟨S500000, .f32⟩).toBuf v = v := rfl
theorem ofBuf_v12 (v : (⟨S500000, .i1⟩ : BufTy).Contents (Elt Ideal)) : (StableHlo.TRef.of main_v12 : StableHlo.TRef sig ⟨S500000, .i1⟩).ofBuf v = v := rfl
theorem ofBuf_v13 (v : (⟨S500000, .f32⟩ : BufTy).Contents (Elt Ideal)) : (StableHlo.TRef.of main_v13 : StableHlo.TRef sig ⟨S500000, .f32⟩).ofBuf v = v := rfl
theorem ofBuf_call0_v1 (v : (⟨S500000, .f32⟩ : BufTy).Contents (Elt Ideal)) : (StableHlo.TRef.of main_call0_v1 : StableHlo.TRef sig ⟨S500000, .f32⟩).ofBuf v = v := rfl
theorem toBuf_call0_v1 (v : (⟨S500000, .f32⟩ : BufTy).Contents (Elt Ideal)) : (StableHlo.TRef.of main_call0_v1 : StableHlo.TRef sig ⟨S500000, .f32⟩).toBuf v = v := rfl
theorem ofBuf_call0_v0 (v : (⟨S_, .f32⟩ : BufTy).Contents (Elt Ideal)) : (StableHlo.TRef.of main_call0_v0 : StableHlo.TRef sig ⟨S_, .f32⟩).ofBuf v = v := rfl
theorem toBuf_call0_v0 (v : (⟨S_, .f32⟩ : BufTy).Contents (Elt Ideal)) : (StableHlo.TRef.of main_call0_v0 : StableHlo.TRef sig ⟨S_, .f32⟩).toBuf v = v := rfl
theorem ofBuf_cst_2 (v : (⟨S_, .f32⟩ : BufTy).Contents (Elt Ideal)) : (StableHlo.TRef.of main_cst_2 : StableHlo.TRef sig ⟨S_, .f32⟩).ofBuf v = v := rfl

/-- The inverse square roots of the degrees. -/
theorem W2_v14 : W2 m ρ c (Proc.devRef .tc main_v14) = (dinvV (F := Ideal) (dstV (F := Ideal) (m ((c : Thread nD τ).loc main_arg1)))) := by
  have h0 := W1_v12 m ρ c
  have h1 := W1_v13 m ρ c
  have h2 := W1_cst_2 m ρ c
  show StableHlo.after hostOps0_1 (W1 m ρ c) (Proc.devRef .tc main_v14) = _
  generalize W1 m ρ c = V at h0 h1 h2 ⊢
  after_results_simp
  rw [h0, h1, h2]
  rw [toBuf_v14, ofBuf_v12, ofBuf_v13, ofBuf_call0_v1, toBuf_call0_v1, ofBuf_call0_v0, toBuf_call0_v0, ofBuf_cst_2]
  rfl

theorem W2_v3 : W2 m ρ c (Proc.devRef .tc main_v3) = (srcV (F := Ideal) (m ((c : Thread nD τ).loc main_arg1))) :=
  (keep2 m ρ c main_v3 (by decide)).trans (W1_v3 m ρ c)

theorem W2_v6 : W2 m ρ c (Proc.devRef .tc main_v6) = (dstV (F := Ideal) (m ((c : Thread nD τ).loc main_arg1))) :=
  (keep2 m ρ c main_v6 (by decide)).trans (W1_v6 m ρ c)

/-- The messages' weights. -/
theorem W3_v29 : W3 m ρ c (Proc.devRef .tc main_v29) = (normV (F := Ideal) (srcV (F := Ideal) (m ((c : Thread nD τ).loc main_arg1))) (dstV (F := Ideal) (m ((c : Thread nD τ).loc main_arg1)))) := by
  have h0 := W2_v14 m ρ c
  have h1 := W2_v3 m ρ c
  have h2 := W2_v6 m ρ c
  show StableHlo.after hostOps0_2 (W2 m ρ c) (Proc.devRef .tc main_v29) = _
  generalize W2 m ρ c = V at h0 h1 h2 ⊢
  after_results_simp
  rw [h0, h1, h2]
  try rfl

theorem W4_v3 : W4 m ρ c (Proc.devRef .tc main_v3) = (srcV (F := Ideal) (m ((c : Thread nD τ).loc main_arg1))) :=
  ((W4_of_ne m ρ c main_v3 (by decide)).trans ((keep3 m ρ c main_v3 (by decide)).trans (keep2 m ρ c main_v3 (by decide)))).trans (W1_v3 m ρ c)
theorem W4_v6 : W4 m ρ c (Proc.devRef .tc main_v6) = (dstV (F := Ideal) (m ((c : Thread nD τ).loc main_arg1))) :=
  ((W4_of_ne m ρ c main_v6 (by decide)).trans ((keep3 m ρ c main_v6 (by decide)).trans (keep2 m ρ c main_v6 (by decide)))).trans (W1_v6 m ρ c)
theorem W4_v29 : W4 m ρ c (Proc.devRef .tc main_v29) = (normV (F := Ideal) (srcV (F := Ideal) (m ((c : Thread nD τ).loc main_arg1))) (dstV (F := Ideal) (m ((c : Thread nD τ).loc main_arg1)))) :=
  (W4_of_ne m ρ c main_v29 (by decide)).trans (W3_v29 m ρ c)
theorem W7_v3 : W7 m ρ c (Proc.devRef .tc main_v3) = (srcV (F := Ideal) (m ((c : Thread nD τ).loc main_arg1))) :=
  ((W7_of_ne m ρ c main_v3 (by decide)).trans ((W6_of_ne m ρ c main_v3 (by decide)).trans ((keep5 m ρ c main_v3 (by decide)).trans ((W4_of_ne m ρ c main_v3 (by decide)).trans ((keep3 m ρ c main_v3 (by decide)).trans (keep2 m ρ c main_v3 (by decide))))))).trans (W1_v3 m ρ c)
theorem W7_v6 : W7 m ρ c (Proc.devRef .tc main_v6) = (dstV (F := Ideal) (m ((c : Thread nD τ).loc main_arg1))) :=
  ((W7_of_ne m ρ c main_v6 (by decide)).trans ((W6_of_ne m ρ c main_v6 (by decide)).trans ((keep5 m ρ c main_v6 (by decide)).trans ((W4_of_ne m ρ c main_v6 (by decide)).trans ((keep3 m ρ c main_v6 (by decide)).trans (keep2 m ρ c main_v6 (by decide))))))).trans (W1_v6 m ρ c)
theorem W7_v29 : W7 m ρ c (Proc.devRef .tc main_v29) = (normV (F := Ideal) (srcV (F := Ideal) (m ((c : Thread nD τ).loc main_arg1))) (dstV (F := Ideal) (m ((c : Thread nD τ).loc main_arg1)))) :=
  ((W7_of_ne m ρ c main_v29 (by decide)).trans ((W6_of_ne m ρ c main_v29 (by decide)).trans ((keep5 m ρ c main_v29 (by decide)).trans (W4_of_ne m ρ c main_v29 (by decide))))).trans (W3_v29 m ρ c)
theorem W10_v3 : W10 m ρ c (Proc.devRef .tc main_v3) = (srcV (F := Ideal) (m ((c : Thread nD τ).loc main_arg1))) :=
  ((W10_of_ne m ρ c main_v3 (by decide)).trans ((W9_of_ne m ρ c main_v3 (by decide)).trans ((keep8 m ρ c main_v3 (by decide)).trans ((W7_of_ne m ρ c main_v3 (by decide)).trans ((W6_of_ne m ρ c main_v3 (by decide)).trans ((keep5 m ρ c main_v3 (by decide)).trans ((W4_of_ne m ρ c main_v3 (by decide)).trans ((keep3 m ρ c main_v3 (by decide)).trans (keep2 m ρ c main_v3 (by decide)))))))))).trans (W1_v3 m ρ c)
theorem W10_v6 : W10 m ρ c (Proc.devRef .tc main_v6) = (dstV (F := Ideal) (m ((c : Thread nD τ).loc main_arg1))) :=
  ((W10_of_ne m ρ c main_v6 (by decide)).trans ((W9_of_ne m ρ c main_v6 (by decide)).trans ((keep8 m ρ c main_v6 (by decide)).trans ((W7_of_ne m ρ c main_v6 (by decide)).trans ((W6_of_ne m ρ c main_v6 (by decide)).trans ((keep5 m ρ c main_v6 (by decide)).trans ((W4_of_ne m ρ c main_v6 (by decide)).trans ((keep3 m ρ c main_v6 (by decide)).trans (keep2 m ρ c main_v6 (by decide)))))))))).trans (W1_v6 m ρ c)
theorem W10_v29 : W10 m ρ c (Proc.devRef .tc main_v29) = (normV (F := Ideal) (srcV (F := Ideal) (m ((c : Thread nD τ).loc main_arg1))) (dstV (F := Ideal) (m ((c : Thread nD τ).loc main_arg1)))) :=
  ((W10_of_ne m ρ c main_v29 (by decide)).trans ((W9_of_ne m ρ c main_v29 (by decide)).trans ((keep8 m ρ c main_v29 (by decide)).trans ((W7_of_ne m ρ c main_v29 (by decide)).trans ((W6_of_ne m ρ c main_v29 (by decide)).trans ((keep5 m ρ c main_v29 (by decide)).trans (W4_of_ne m ρ c main_v29 (by decide)))))))).trans (W3_v29 m ρ c)

/-! ## The first layer: launch 0, a stretch of host operations, launch 1 -/

theorem W4_v30 : W4 m ρ c (Proc.devRef .tc main_v30) = (prod0 (m ((c : Thread nD τ).loc main_arg0)) (m ((c : Thread nD τ).loc main_arg2))) :=
  (W4_arr m ρ c 2).trans ((final0 (V3 m ρ) c).trans (congrArg₂ prod0 (W3_arg0 m ρ c) (W3_arg2 m ρ c)))

theorem W5_v43 : W5 m ρ c (Proc.devRef .tc main_v43) = (agg4 (F := Ideal) (prod0 (m ((c : Thread nD τ).loc main_arg0)) (m ((c : Thread nD τ).loc main_arg2))) (srcV (F := Ideal) (m ((c : Thread nD τ).loc main_arg1))) (dstV (F := Ideal) (m ((c : Thread nD τ).loc main_arg1))) (normV (F := Ideal) (srcV (F := Ideal) (m ((c : Thread nD τ).loc main_arg1))) (dstV (F := Ideal) (m ((c : Thread nD τ).loc main_arg1))))) := by
  have h0 := W4_v30 m ρ c
  have h1 := W4_v3 m ρ c
  have h2 := W4_v6 m ρ c
  have h3 := W4_v29 m ρ c
  show StableHlo.after hostOps1 (W4 m ρ c) (Proc.devRef .tc main_v43) = _
  generalize W4 m ρ c = V at h0 h1 h2 h3 ⊢
  after_results_simp
  rw [h0, h1, h2, h3]
  try rfl

theorem W5_v44 : W5 m ρ c (Proc.devRef .tc main_v44) = (shapeCast S1x4 (m ((c : Thread nD τ).loc main_arg3)) shapeCasts_S4_S1x4) := by
  have h0 := W4_arg3 m ρ c
  show StableHlo.after hostOps1 (W4 m ρ c) (Proc.devRef .tc main_v44) = _
  generalize W4 m ρ c = V at h0 ⊢
  after_results_simp
  rw [h0]
  try rfl

/-- The first hidden layer. -/
theorem W6_v45 : W6 m ρ c (Proc.devRef .tc main_v45) = (hidden1 (m ((c : Thread nD τ).loc main_arg0)) (m ((c : Thread nD τ).loc main_arg1)) (m ((c : Thread nD τ).loc main_arg2)) (m ((c : Thread nD τ).loc main_arg3))) :=
  (W6_arr m ρ c 2).trans ((final1 (V5 m ρ) c).trans (congrArg₂ act1 (W5_v43 m ρ c) (W5_v44 m ρ c)))

/-! ## The second layer: launch 2, a stretch of host operations, launch 3 -/

theorem W7_v46 : W7 m ρ c (Proc.devRef .tc main_v46) = (prod2 (hidden1 (m ((c : Thread nD τ).loc main_arg0)) (m ((c : Thread nD τ).loc main_arg1)) (m ((c : Thread nD τ).loc main_arg2)) (m ((c : Thread nD τ).loc main_arg3))) (m ((c : Thread nD τ).loc main_arg4))) :=
  (W7_arr m ρ c 2).trans ((final2 (V6 m ρ) c).trans (congrArg₂ prod2 (W6_v45 m ρ c) (W6_arg4 m ρ c)))

theorem W8_v59 : W8 m ρ c (Proc.devRef .tc main_v59) = (agg4 (F := Ideal) (prod2 (hidden1 (m ((c : Thread nD τ).loc main_arg0)) (m ((c : Thread nD τ).loc main_arg1)) (m ((c : Thread nD τ).loc main_arg2)) (m ((c : Thread nD τ).loc main_arg3))) (m ((c : Thread nD τ).loc main_arg4))) (srcV (F := Ideal) (m ((c : Thread nD τ).loc main_arg1))) (dstV (F := Ideal) (m ((c : Thread nD τ).loc main_arg1))) (normV (F := Ideal) (srcV (F := Ideal) (m ((c : Thread nD τ).loc main_arg1))) (dstV (F := Ideal) (m ((c : Thread nD τ).loc main_arg1))))) := by
  have h0 := W7_v46 m ρ c
  have h1 := W7_v3 m ρ c
  have h2 := W7_v6 m ρ c
  have h3 := W7_v29 m ρ c
  show StableHlo.after hostOps3 (W7 m ρ c) (Proc.devRef .tc main_v59) = _
  generalize W7 m ρ c = V at h0 h1 h2 h3 ⊢
  after_results_simp
  rw [h0, h1, h2, h3]
  try rfl

theorem W8_v60 : W8 m ρ c (Proc.devRef .tc main_v60) = (shapeCast S1x4 (m ((c : Thread nD τ).loc main_arg5)) shapeCasts_S4_S1x4) := by
  have h0 := W7_arg5 m ρ c
  show StableHlo.after hostOps3 (W7 m ρ c) (Proc.devRef .tc main_v60) = _
  generalize W7 m ρ c = V at h0 ⊢
  after_results_simp
  rw [h0]
  try rfl

/-- The second hidden layer. -/
theorem W9_v61 : W9 m ρ c (Proc.devRef .tc main_v61) = (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (W9_arr m ρ c 2).trans ((final3 (V8 m ρ) c).trans (congrArg₂ act3 (W8_v59 m ρ c) (W8_v60 m ρ c)))

/-! ## The third layer: launch 4, a stretch of host operations, launch 5 -/

theorem W10_v62 : W10 m ρ c (Proc.devRef .tc main_v62) = (prod4 (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) :=
  (W10_arr m ρ c 2).trans ((final4 (V9 m ρ) c).trans (congrArg₂ prod4 (W9_v61 m ρ c) (W9_arg6 m ρ c)))

theorem W11_v75 : W11 m ρ c (Proc.devRef .tc main_v75) = (agg2 (F := Ideal) (prod4 (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (srcV (F := Ideal) (m ((c : Thread nD τ).loc main_arg1))) (dstV (F := Ideal) (m ((c : Thread nD τ).loc main_arg1))) (normV (F := Ideal) (srcV (F := Ideal) (m ((c : Thread nD τ).loc main_arg1))) (dstV (F := Ideal) (m ((c : Thread nD τ).loc main_arg1))))) := by
  have h0 := W10_v62 m ρ c
  have h1 := W10_v3 m ρ c
  have h2 := W10_v6 m ρ c
  have h3 := W10_v29 m ρ c
  show StableHlo.after hostOps5 (W10 m ρ c) (Proc.devRef .tc main_v75) = _
  generalize W10 m ρ c = V at h0 h1 h2 h3 ⊢
  after_results_simp
  rw [h0, h1, h2, h3]
  try rfl

theorem W11_v76 : W11 m ρ c (Proc.devRef .tc main_v76) = (shapeCast S1x2 (m ((c : Thread nD τ).loc main_arg7)) shapeCasts_S2_S1x2) := by
  have h0 := W10_arg7 m ρ c
  show StableHlo.after hostOps5 (W10 m ρ c) (Proc.devRef .tc main_v76) = _
  generalize W10 m ρ c = V at h0 ⊢
  after_results_simp
  rw [h0]
  try rfl

/-- The third hidden layer. -/
theorem W12_v77 : W12 m ρ c (Proc.devRef .tc main_v77) = (hidden3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W12_arr m ρ c 2).trans ((final5 (V11 m ρ) c).trans (congrArg₂ act5 (W11_v75 m ρ c) (W11_v76 m ρ c)))

/-! ## The classifier: launch 6, one reshape, launch 7 -/

theorem W13_v78 : W13 m ρ c (Proc.devRef .tc main_v78) = (prod6 (hidden3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) :=
  (W13_arr m ρ c 2).trans ((final6 (V12 m ρ) c).trans (congrArg₂ prod6 (W12_v77 m ρ c) (W12_arg8 m ρ c)))

theorem W14_v79 : W14 m ρ c (Proc.devRef .tc main_v79) = (shapeCast S1x10 (m ((c : Thread nD τ).loc main_arg9)) shapeCasts_S10_S1x10) := by
  have h0 := W13_arg9 m ρ c
  show StableHlo.after hostOps7 (W13 m ρ c) (Proc.devRef .tc main_v79) = _
  generalize W13 m ρ c = V at h0 ⊢
  after_results_simp
  rw [h0]
  try rfl

theorem W14_v78 : W14 m ρ c (Proc.devRef .tc main_v78) = (prod6 (hidden3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) :=
  (keep14 m ρ c main_v78 (by decide)).trans (W13_v78 m ρ c)

/-- The logits array after the last segment. -/
theorem W15_v80 : W15 m ρ c (Proc.devRef .tc main_v80) = (logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (W15_arr m ρ c 2).trans ((final7 (V14 m ρ) c).trans (congrArg₂ act7 (W14_v78 m ρ c) (W14_v79 m ρ c)))
/-- The last hidden layer after the last segment. -/
theorem W15_v77 : W15 m ρ c (Proc.devRef .tc main_v77) = (hidden3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  ((W15_of_ne m ρ c main_v77 (by decide)).trans ((keep14 m ρ c main_v77 (by decide)).trans ((W13_arr m ρ c 0).trans (((dat6 (V12 m ρ) c).arrAt_in 0 rfl _).trans (A_eq6 (V12 m ρ) c 0))))).trans (W12_v77 m ρ c)

end Cert.KernelIdeal.Hand

end
-- ==== Proof.RefLayers.lean ====
/-
  The reference program, layer by layer, is the same network.

  The reference's run ends with each result at its operations' composed value of the arguments, which the generated
  read-back names one operation at a time (`val_main_vN`).  Its host operations between the dense products are the
  very operations the kernel program runs between its launches, so those stages agree by unfolding; what is left
  is that each `dot_general` against a transposed weight is the launch's whole product `∑ k, a[i, k] · w[j, k]`, and
  that adding the twice-broadcast bias vector is adding the reshaped bias row.  Composing the four layers gives the two
  results as `hidden3` and `logits`.
-/
import proofs.«155125_j15204184228224_1_alg».proof.Proof.RefRead
import proofs.«155125_j15204184228224_1_alg».proof.Proof.Layers

set_option maxRecDepth 16384

noncomputable section

namespace Cert.ReferenceIdeal.Hand

open Cert.KernelIdeal Cert.KernelIdeal.Gen Cert.KernelIdeal.Hand Idealize.ShloMosaic Idealize.ShloMosaic.TcCoe Idealize.ShloMosaic.ValueIdx

variable (x0 : (⟨S500000x128, .f32⟩ : BufTy).Contents (Elt Ideal)) (e : (⟨S2x8000000, .i32⟩ : BufTy).Contents (Elt Ideal)) (x2 : (⟨S4x128, .f32⟩ : BufTy).Contents (Elt Ideal)) (x3 : (⟨S4, .f32⟩ : BufTy).Contents (Elt Ideal))
  (x4 : (⟨S4x4, .f32⟩ : BufTy).Contents (Elt Ideal)) (x5 : (⟨S4, .f32⟩ : BufTy).Contents (Elt Ideal)) (x6 : (⟨S2x4, .f32⟩ : BufTy).Contents (Elt Ideal)) (x7 : (⟨S2, .f32⟩ : BufTy).Contents (Elt Ideal)) (x8 : (⟨S10x2, .f32⟩ : BufTy).Contents (Elt Ideal)) (x9 : (⟨S10, .f32⟩ : BufTy).Contents (Elt Ideal))

/-! ## The edge vectors and the messages' weights: the same host operations -/

theorem src_eq : Cert.ReferenceIdeal.Read.val_main_v3 (F := Ideal) e = srcV (F := Ideal) e := rfl
theorem dst_eq : Cert.ReferenceIdeal.Read.val_main_v6 (F := Ideal) e = dstV (F := Ideal) e := rfl
theorem pos_eq : Cert.ReferenceIdeal.Read.val_main_v12 (F := Ideal) e = posV (F := Ideal) (Cert.ReferenceIdeal.Read.val_main_v6 (F := Ideal) e) := rfl
theorem rs_eq : Cert.ReferenceIdeal.Read.val_main_v13 (F := Ideal) e = rsV (F := Ideal) (Cert.ReferenceIdeal.Read.val_main_v6 (F := Ideal) e) := rfl
theorem dinv_eq : Cert.ReferenceIdeal.Read.val_main_v14 (F := Ideal) e = dinvV (F := Ideal) (Cert.ReferenceIdeal.Read.val_main_v6 (F := Ideal) e) := by
  unfold Cert.ReferenceIdeal.Read.val_main_v14 dinvV
  rw [pos_eq, rs_eq]
  rfl
theorem norm_eq' : Cert.ReferenceIdeal.Read.val_main_v29 (F := Ideal) e = normV (F := Ideal) (Cert.ReferenceIdeal.Read.val_main_v3 (F := Ideal) e) (Cert.ReferenceIdeal.Read.val_main_v6 (F := Ideal) e) := by
  unfold Cert.ReferenceIdeal.Read.val_main_v29 Cert.ReferenceIdeal.Read.val_main_v21 Cert.ReferenceIdeal.Read.val_main_v28 normV
  rw [dinv_eq]
  rfl
theorem norm_eq : Cert.ReferenceIdeal.Read.val_main_v29 (F := Ideal) e = normV (F := Ideal) (srcV (F := Ideal) e) (dstV (F := Ideal) e) := by
  rw [norm_eq', src_eq, dst_eq]

/-- The bias vector reshaped to one row, read at column q, is its q-th entry. -/
theorem bias_read4 (b : (⟨S4, .f32⟩ : BufTy).Contents (Elt Ideal)) (q : Fin 4) : shapeCast S1x4 b shapeCasts_S4_S1x4 (ix2 (0 : Fin 1) q) = b (ix1 q) := by
  refine shapeCast_apply b shapeCasts_S4_S1x4 (ix2 (0 : Fin 1) q) (ix1 q) ?_
  rw [Shape.rowMajor_val_one, Shape.rowMajor_val_two]
  show q.val = 0 * 4 + q.val
  omega

/-- The bias vector reshaped to one row, read at column q, is its q-th entry. -/
theorem bias_read2 (b : (⟨S2, .f32⟩ : BufTy).Contents (Elt Ideal)) (q : Fin 2) : shapeCast S1x2 b shapeCasts_S2_S1x2 (ix2 (0 : Fin 1) q) = b (ix1 q) := by
  refine shapeCast_apply b shapeCasts_S2_S1x2 (ix2 (0 : Fin 1) q) (ix1 q) ?_
  rw [Shape.rowMajor_val_one, Shape.rowMajor_val_two]
  show q.val = 0 * 2 + q.val
  omega

/-- The bias vector reshaped to one row, read at column q, is its q-th entry. -/
theorem bias_read10 (b : (⟨S10, .f32⟩ : BufTy).Contents (Elt Ideal)) (q : Fin 10) : shapeCast S1x10 b shapeCasts_S10_S1x10 (ix2 (0 : Fin 1) q) = b (ix1 q) := by
  refine shapeCast_apply b shapeCasts_S10_S1x10 (ix2 (0 : Fin 1) q) (ix1 q) ?_
  rw [Shape.rowMajor_val_one, Shape.rowMajor_val_two]
  show q.val = 0 * 10 + q.val
  omega

/-! ## The first layer -/

/-- The reference's matrix product of layer input and transposed weight is the whole product of launch 0: both are
    `∑ k, a[i, k] · w[j, k]`. -/
theorem prod0_eq : Cert.ReferenceIdeal.Read.val_main_v31 (F := Ideal) x0 x2 = prod0 x0 x2 := by
  funext i
  rw [Cert.ReferenceIdeal.Read.val_main_v31_apply]
  unfold prod0
  refine Finset.sum_congr rfl fun k _ => ?_
  rw [Cert.ReferenceIdeal.Read.val_main_v30_apply]
  refine congrArg₂ (· * ·) (congrArg _ ?_) (congrArg _ ?_)
  · funext a; match a with
    | ⟨0, _⟩ => rfl
    | ⟨1, _⟩ => rfl
  · funext a; match a with
    | ⟨0, _⟩ => rfl
    | ⟨1, _⟩ => rfl

/-- The reference's gather, scaling and scatter-add is the aggregation step, by unfolding. -/
theorem agg1_eq : Cert.ReferenceIdeal.Read.val_main_v44 (F := Ideal) x0 e x2 = agg4 (F := Ideal) (Cert.ReferenceIdeal.Read.val_main_v31 (F := Ideal) x0 x2) (Cert.ReferenceIdeal.Read.val_main_v3 (F := Ideal) e) (Cert.ReferenceIdeal.Read.val_main_v6 (F := Ideal) e) (Cert.ReferenceIdeal.Read.val_main_v29 (F := Ideal) e) := rfl

theorem sum1_apply (A B : FVec Ideal S500000x4 .f32) (i : S500000x4.Idx) : Host.tanh (addf A B) i = Ideal.tanh (A i + B i) := rfl
theorem act1_apply (A : FVec Ideal S500000x4 .f32) (B : FVec Ideal S1x4 .f32) (p : Fin 500000) (q : Fin 4) : act1 A B (ix2 p q) = Ideal.tanh (A (ix2 p q) + B (ix2 (0 : Fin 1) q)) := rfl

/-- The reference's bias addition and hyperbolic tangent is launch 1's whole step: the kernel's reshaped bias row and the
    reference's twice-broadcast bias vector read the same entry. -/
theorem act1_eq : Cert.ReferenceIdeal.Read.val_main_v48 (F := Ideal) x0 e x2 x3 = act1 (Cert.ReferenceIdeal.Read.val_main_v44 (F := Ideal) x0 e x2) (shapeCast S1x4 x3 shapeCasts_S4_S1x4) := by
  unfold Cert.ReferenceIdeal.Read.val_main_v48 Cert.ReferenceIdeal.Read.val_main_v47
  generalize Cert.ReferenceIdeal.Read.val_main_v44 (F := Ideal) x0 e x2 = A
  funext i
  obtain ⟨p, q, rfl⟩ : ∃ (p : Fin 500000) (q : Fin 4), i = ix2 p q := ⟨i 0, i 1, eq_ix2 i⟩
  refine (sum1_apply A _ (ix2 p q)).trans ((congrArg (fun z => Ideal.tanh (A (ix2 p q) + z)) ?_).trans (act1_apply A _ p q).symm)
  rw [Cert.ReferenceIdeal.Read.val_main_v46_apply, Cert.ReferenceIdeal.Read.val_main_v45_apply, bias_read4]
  exact congrArg x3 (funext fun a => match a with | ⟨0, _⟩ => rfl)

theorem hidden1_eq : Cert.ReferenceIdeal.Read.val_main_v48 (F := Ideal) x0 e x2 x3 = hidden1 x0 e x2 x3 := by
  rw [act1_eq, agg1_eq, prod0_eq, src_eq, dst_eq, norm_eq]
  rfl

/-! ## The second layer -/

/-- The reference's matrix product of layer input and transposed weight is the whole product of launch 2: both are
    `∑ k, a[i, k] · w[j, k]`. -/
theorem prod2_eq : Cert.ReferenceIdeal.Read.val_main_v50 (F := Ideal) x0 e x2 x3 x4 = prod2 (Cert.ReferenceIdeal.Read.val_main_v48 (F := Ideal) x0 e x2 x3) x4 := by
  funext i
  rw [Cert.ReferenceIdeal.Read.val_main_v50_apply]
  unfold prod2
  refine Finset.sum_congr rfl fun k _ => ?_
  rw [Cert.ReferenceIdeal.Read.val_main_v49_apply]
  refine congrArg₂ (· * ·) (congrArg _ ?_) (congrArg _ ?_)
  · funext a; match a with
    | ⟨0, _⟩ => rfl
    | ⟨1, _⟩ => rfl
  · funext a; match a with
    | ⟨0, _⟩ => rfl
    | ⟨1, _⟩ => rfl

/-- The reference's gather, scaling and scatter-add is the aggregation step, by unfolding. -/
theorem agg3_eq : Cert.ReferenceIdeal.Read.val_main_v63 (F := Ideal) x0 e x2 x3 x4 = agg4 (F := Ideal) (Cert.ReferenceIdeal.Read.val_main_v50 (F := Ideal) x0 e x2 x3 x4) (Cert.ReferenceIdeal.Read.val_main_v3 (F := Ideal) e) (Cert.ReferenceIdeal.Read.val_main_v6 (F := Ideal) e) (Cert.ReferenceIdeal.Read.val_main_v29 (F := Ideal) e) := rfl

theorem sum3_apply (A B : FVec Ideal S500000x4 .f32) (i : S500000x4.Idx) : Host.tanh (addf A B) i = Ideal.tanh (A i + B i) := rfl
theorem act3_apply (A : FVec Ideal S500000x4 .f32) (B : FVec Ideal S1x4 .f32) (p : Fin 500000) (q : Fin 4) : act3 A B (ix2 p q) = Ideal.tanh (A (ix2 p q) + B (ix2 (0 : Fin 1) q)) := rfl

/-- The reference's bias addition and hyperbolic tangent is launch 3's whole step: the kernel's reshaped bias row and the
    reference's twice-broadcast bias vector read the same entry. -/
theorem act3_eq : Cert.ReferenceIdeal.Read.val_main_v67 (F := Ideal) x0 e x2 x3 x4 x5 = act3 (Cert.ReferenceIdeal.Read.val_main_v63 (F := Ideal) x0 e x2 x3 x4) (shapeCast S1x4 x5 shapeCasts_S4_S1x4) := by
  unfold Cert.ReferenceIdeal.Read.val_main_v67 Cert.ReferenceIdeal.Read.val_main_v66
  generalize Cert.ReferenceIdeal.Read.val_main_v63 (F := Ideal) x0 e x2 x3 x4 = A
  funext i
  obtain ⟨p, q, rfl⟩ : ∃ (p : Fin 500000) (q : Fin 4), i = ix2 p q := ⟨i 0, i 1, eq_ix2 i⟩
  refine (sum3_apply A _ (ix2 p q)).trans ((congrArg (fun z => Ideal.tanh (A (ix2 p q) + z)) ?_).trans (act3_apply A _ p q).symm)
  rw [Cert.ReferenceIdeal.Read.val_main_v65_apply, Cert.ReferenceIdeal.Read.val_main_v64_apply, bias_read4]
  exact congrArg x5 (funext fun a => match a with | ⟨0, _⟩ => rfl)

theorem hidden2_eq : Cert.ReferenceIdeal.Read.val_main_v67 (F := Ideal) x0 e x2 x3 x4 x5 = hidden2 x0 e x2 x3 x4 x5 := by
  rw [act3_eq, agg3_eq, prod2_eq, hidden1_eq, src_eq, dst_eq, norm_eq]
  rfl

/-! ## The third layer -/

/-- The reference's matrix product of layer input and transposed weight is the whole product of launch 4: both are
    `∑ k, a[i, k] · w[j, k]`. -/
theorem prod4_eq : Cert.ReferenceIdeal.Read.val_main_v69 (F := Ideal) x0 e x2 x3 x4 x5 x6 = prod4 (Cert.ReferenceIdeal.Read.val_main_v67 (F := Ideal) x0 e x2 x3 x4 x5) x6 := by
  funext i
  rw [Cert.ReferenceIdeal.Read.val_main_v69_apply]
  unfold prod4
  refine Finset.sum_congr rfl fun k _ => ?_
  rw [Cert.ReferenceIdeal.Read.val_main_v68_apply]
  refine congrArg₂ (· * ·) (congrArg _ ?_) (congrArg _ ?_)
  · funext a; match a with
    | ⟨0, _⟩ => rfl
    | ⟨1, _⟩ => rfl
  · funext a; match a with
    | ⟨0, _⟩ => rfl
    | ⟨1, _⟩ => rfl

/-- The reference's gather, scaling and scatter-add is the aggregation step, by unfolding. -/
theorem agg5_eq : Cert.ReferenceIdeal.Read.val_main_v82 (F := Ideal) x0 e x2 x3 x4 x5 x6 = agg2 (F := Ideal) (Cert.ReferenceIdeal.Read.val_main_v69 (F := Ideal) x0 e x2 x3 x4 x5 x6) (Cert.ReferenceIdeal.Read.val_main_v3 (F := Ideal) e) (Cert.ReferenceIdeal.Read.val_main_v6 (F := Ideal) e) (Cert.ReferenceIdeal.Read.val_main_v29 (F := Ideal) e) := rfl

theorem sum5_apply (A B : FVec Ideal S500000x2 .f32) (i : S500000x2.Idx) : Host.tanh (addf A B) i = Ideal.tanh (A i + B i) := rfl
theorem act5_apply (A : FVec Ideal S500000x2 .f32) (B : FVec Ideal S1x2 .f32) (p : Fin 500000) (q : Fin 2) : act5 A B (ix2 p q) = Ideal.tanh (A (ix2 p q) + B (ix2 (0 : Fin 1) q)) := rfl

/-- The reference's bias addition and hyperbolic tangent is launch 5's whole step: the kernel's reshaped bias row and the
    reference's twice-broadcast bias vector read the same entry. -/
theorem act5_eq : Cert.ReferenceIdeal.Read.val_main_v86 (F := Ideal) x0 e x2 x3 x4 x5 x6 x7 = act5 (Cert.ReferenceIdeal.Read.val_main_v82 (F := Ideal) x0 e x2 x3 x4 x5 x6) (shapeCast S1x2 x7 shapeCasts_S2_S1x2) := by
  unfold Cert.ReferenceIdeal.Read.val_main_v86 Cert.ReferenceIdeal.Read.val_main_v85
  generalize Cert.ReferenceIdeal.Read.val_main_v82 (F := Ideal) x0 e x2 x3 x4 x5 x6 = A
  funext i
  obtain ⟨p, q, rfl⟩ : ∃ (p : Fin 500000) (q : Fin 2), i = ix2 p q := ⟨i 0, i 1, eq_ix2 i⟩
  refine (sum5_apply A _ (ix2 p q)).trans ((congrArg (fun z => Ideal.tanh (A (ix2 p q) + z)) ?_).trans (act5_apply A _ p q).symm)
  rw [Cert.ReferenceIdeal.Read.val_main_v84_apply, Cert.ReferenceIdeal.Read.val_main_v83_apply, bias_read2]
  exact congrArg x7 (funext fun a => match a with | ⟨0, _⟩ => rfl)

theorem hidden3_eq : Cert.ReferenceIdeal.Read.val_main_v86 (F := Ideal) x0 e x2 x3 x4 x5 x6 x7 = hidden3 x0 e x2 x3 x4 x5 x6 x7 := by
  rw [act5_eq, agg5_eq, prod4_eq, hidden2_eq, src_eq, dst_eq, norm_eq]
  rfl

/-! ## The classifier -/

/-- The reference's matrix product of layer input and transposed weight is the whole product of launch 6: both are
    `∑ k, a[i, k] · w[j, k]`. -/
theorem prod6_eq : Cert.ReferenceIdeal.Read.val_main_v88 (F := Ideal) x0 e x2 x3 x4 x5 x6 x7 x8 = prod6 (Cert.ReferenceIdeal.Read.val_main_v86 (F := Ideal) x0 e x2 x3 x4 x5 x6 x7) x8 := by
  funext i
  rw [Cert.ReferenceIdeal.Read.val_main_v88_apply]
  unfold prod6
  refine Finset.sum_congr rfl fun k _ => ?_
  rw [Cert.ReferenceIdeal.Read.val_main_v87_apply]
  refine congrArg₂ (· * ·) (congrArg _ ?_) (congrArg _ ?_)
  · funext a; match a with
    | ⟨0, _⟩ => rfl
    | ⟨1, _⟩ => rfl
  · funext a; match a with
    | ⟨0, _⟩ => rfl
    | ⟨1, _⟩ => rfl

theorem sum7_apply (A B : FVec Ideal S500000x10 .f32) (i : S500000x10.Idx) : addf A B i = A i + B i := rfl
theorem act7_apply (A : FVec Ideal S500000x10 .f32) (B : FVec Ideal S1x10 .f32) (p : Fin 500000) (q : Fin 10) : act7 A B (ix2 p q) = (A (ix2 p q) + B (ix2 (0 : Fin 1) q)) := rfl

/-- The reference's bias addition is launch 7's whole step: the kernel's reshaped bias row and the
    reference's twice-broadcast bias vector read the same entry. -/
theorem act7_eq : Cert.ReferenceIdeal.Read.val_main_v91 (F := Ideal) x0 e x2 x3 x4 x5 x6 x7 x8 x9 = act7 (Cert.ReferenceIdeal.Read.val_main_v88 (F := Ideal) x0 e x2 x3 x4 x5 x6 x7 x8) (shapeCast S1x10 x9 shapeCasts_S10_S1x10) := by
  unfold Cert.ReferenceIdeal.Read.val_main_v91
  generalize Cert.ReferenceIdeal.Read.val_main_v88 (F := Ideal) x0 e x2 x3 x4 x5 x6 x7 x8 = A
  funext i
  obtain ⟨p, q, rfl⟩ : ∃ (p : Fin 500000) (q : Fin 10), i = ix2 p q := ⟨i 0, i 1, eq_ix2 i⟩
  refine (sum7_apply A _ (ix2 p q)).trans ((congrArg (fun z => (A (ix2 p q) + z)) ?_).trans (act7_apply A _ p q).symm)
  rw [Cert.ReferenceIdeal.Read.val_main_v90_apply, Cert.ReferenceIdeal.Read.val_main_v89_apply, bias_read10]
  exact congrArg x9 (funext fun a => match a with | ⟨0, _⟩ => rfl)

theorem logits_eq : Cert.ReferenceIdeal.Read.val_main_v91 (F := Ideal) x0 e x2 x3 x4 x5 x6 x7 x8 x9 = logits x0 e x2 x3 x4 x5 x6 x7 x8 x9 := by
  rw [act7_eq, prod6_eq, hidden3_eq]
  rfl

end Cert.ReferenceIdeal.Hand

end
-- ==== Proof.lean ====
/-
  A three-layer graph convolution network with a linear classifier on a graph of 500000 nodes and 8000000 edges:
  the kernel program against its plain reference, over the extended reals.

  Both programs build the same message vectors from the edge list (source and destination of each edge, one self
  loop per node, each message weighted by the inverse square roots of its ends' degrees) and run the same gather,
  scaling and scatter-add around each layer.  They differ only in the dense steps: the kernel program runs each
  feature product `h · Wᵀ` and each bias step `tanh (agg + b)` as a grid launch over 100 blocks of 5000 node rows, the
  reference as one `dot_general` and one broadcast addition.  At the ideal values a block product into a zero
  accumulator is the plain sum `∑ k, h[i, k] · W[j, k]` (the narrowing format changes are the identity), the blocks of
  each launch cover its result array, and the reshaped bias row is the twice-broadcast bias vector entry by entry —
  so the two programs compute one function of the ten arguments, layer by layer.  No law of the extended reals
  beyond reading both sides at an index is needed, and the precondition is not used.

  Modules: Product0/2/4/6 and Bias1/3/5/7 read each launch's stored block at an entry; Whole0 … Whole7 turn each
  launch into one whole-array function; Layers names the network's layers; NamedRun states the kernel program's run
  with its two results named; Fold reads the buffer contents segment by segment; RefLayers shows the reference's
  stages are the same layers.
-/
import proofs.«155125_j15204184228224_1_alg».proof.Defs
import proofs.«155125_j15204184228224_1_alg».proof.Proof.Gen.Kernel
import proofs.«155125_j15204184228224_1_alg».proof.Proof.Gen.Kernel.Skeleton
import proofs.«155125_j15204184228224_1_alg».proof.Proof.Gen.Kernel.Launch
import proofs.«155125_j15204184228224_1_alg».proof.Proof.Gen.Kernel.Points
import proofs.«155125_j15204184228224_1_alg».proof.Proof.Gen.Kernel.Frame
import proofs.«155125_j15204184228224_1_alg».proof.Proof.Gen.KernelIdeal
import proofs.«155125_j15204184228224_1_alg».proof.Proof.Gen.KernelIdeal.Skeleton
import proofs.«155125_j15204184228224_1_alg».proof.Proof.Gen.KernelIdeal.Launch
import proofs.«155125_j15204184228224_1_alg».proof.Proof.Gen.KernelIdeal.Points
import proofs.«155125_j15204184228224_1_alg».proof.Proof.Gen.KernelIdeal.Frame
import proofs.«155125_j15204184228224_1_alg».proof.Proof.Gen.ReferenceIdeal
import proofs.«155125_j15204184228224_1_alg».proof.Proof.Gen.Pre_finite_inputs
import proofs.«155125_j15204184228224_1_alg».proof.Proof.NamedRun
import proofs.«155125_j15204184228224_1_alg».proof.Proof.Fold
import proofs.«155125_j15204184228224_1_alg».proof.Proof.RefLayers
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does the kernel program at the ideal values. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments alone: its run, the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories that agree on the ten arguments both programs end with the logits and the last hidden layer of
    the network: the kernel program by reading its buffer fold, the reference by reading its stages. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.KernelIdeal.Hand.hidden3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.W15_v80 m ρ c), (h c).2.1.trans (Cert.KernelIdeal.Hand.W15_v77 m ρ c), (h c).2.2⟩)
      (Cert.KernelIdeal.Hand.run_named (F := Ideal) m ρ)
  · refine (θ_run Cert.ReferenceIdeal.defs _ _).mono (fun r h c => ?_) (Cert.ReferenceIdeal.Value.run (F := Ideal) m' ρ')
    obtain ⟨a0, a1, a2, a3, a4, a5, a6, a7, a8, a9⟩ := hagree c
    refine ⟨(h c).1.trans ?_, (h c).2.1.trans ?_, (h c).2.2⟩
    · rw [Cert.ReferenceIdeal.Read.val_main_v91_eq, a0, a1, a2, a3, a4, a5, a6, a7, a8, a9]
      exact Cert.ReferenceIdeal.Hand.logits_eq _ _ _ _ _ _ _ _ _ _
    · rw [Cert.ReferenceIdeal.Read.val_main_v86_eq, a0, a1, a2, a3, a4, a5, a6, a7]
      exact Cert.ReferenceIdeal.Hand.hidden3_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
